-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x12x1024x512 : Shape := ⟨4, ![4, 12, 1024, 512]⟩
abbrev S512x512 : Shape := ⟨2, ![512, 512]⟩
abbrev S512 : Shape := ⟨1, ![512]⟩
abbrev S_ : Shape := ⟨0, ![]⟩

class Facts : Prop where
  bcast_S_S4x12x1024x512 : S_.BroadcastsInDim S4x12x1024x512 (![] : Fin 0 → Fin S4x12x1024x512.rank)
  reducesTo_S4x12x1024x512_S_d0_1_2_3 : S4x12x1024x512.ReducesTo [0, 1, 2, 3] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512 .f32) (main_arg5 : FVec F S512x512 .f32) (main_arg6 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  main_v33

def fn {F : FTy → Type} [FloatOps F] (main_arg0 : FVec F S4x12x1024x512 .f32) (main_arg1 : FVec F S512x512 .f32) (main_arg2 : FVec F S512 .f32) (main_arg3 : FVec F S512x512 .f32) (main_arg4 : FVec F S512 .f32) (main_arg5 : FVec F S512x512 .f32) (main_arg6 : FVec F S512 .f32) : IVec S_ 1 :=
  let main_v0 : FVec F S4x12x1024x512 .f32 := Host.absf main_arg0
  let main_cst : FVec F S_ .f32 := constant S_ .f32 0x7F800000#32
  let main_v1 : FVec F S4x12x1024x512 .f32 := broadcastInDim S4x12x1024x512 ![] bcast_S_S4x12x1024x512 main_cst
  let main_v2 : IVec S4x12x1024x512 1 := cmpf .olt main_v0 main_v1
  let main_c : IVec S_ 1 := constantI S_ 1 1#1
  let main_v3 : IVec S_ 1 := (fun x v => Host.reduce IntOp.andi x v reducesTo_S4x12x1024x512_S_d0_1_2_3 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_arg6 main_v13 main_v16
-- ==== Kernel.lean ====
abbrev S4x12x1024x512 : Shape := ⟨4, ![4, 12, 1024, 512]⟩
abbrev S512x512 : Shape := ⟨2, ![512, 512]⟩
abbrev S512 : Shape := ⟨1, ![512]⟩
abbrev S48x1024x512 : Shape := ⟨3, ![48, 1024, 512]⟩
abbrev S1x1024x512 : Shape := ⟨3, ![1, 1024, 512]⟩
abbrev S1024x512 : Shape := ⟨2, ![1024, 512]⟩
abbrev S1x512 : Shape := ⟨2, ![1, 512]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 10
  | .vmem => 10
  | .smem => 0
  | _ => 0

abbrev bufTy : (tb : Table) → Fin (tcTables nBuf tb) → BufTy
  | .hbm, ⟨0, _⟩ => ⟨S4x12x1024x512, .f32⟩
  | .hbm, ⟨1, _⟩ => ⟨S512x512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S48x1024x512, .f32⟩
  | .hbm, ⟨8, _⟩ => ⟨S48x1024x512, .f32⟩
  | .hbm, ⟨9, _⟩ => ⟨S4x12x1024x512, .f32⟩
  | .local _ .vmem, ⟨0, _⟩ => ⟨S1x1024x512, .f32⟩
  | .local _ .vmem, ⟨1, _⟩ => ⟨S1x1024x512, .f32⟩
  | .local _ .vmem, ⟨2, _⟩ => ⟨S512x512, .f32⟩
  | .local _ .vmem, ⟨3, _⟩ => ⟨S512, .f32⟩
  | .local _ .vmem, ⟨4, _⟩ => ⟨S512x512, .f32⟩
  | .local _ .vmem, ⟨5, _⟩ => ⟨S512, .f32⟩
  | .local _ .vmem, ⟨6, _⟩ => ⟨S512x512, .f32⟩
  | .local _ .vmem, ⟨7, _⟩ => ⟨S512, .f32⟩
  | .local _ .vmem, ⟨8, _⟩ => ⟨S1x1024x512, .f32⟩
  | .local _ .vmem, ⟨9, _⟩ => ⟨S1x1024x512, .f32⟩
  | _, _ => ⟨S4x12x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![48], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S4x12x1024x512_S48x1024x512 : S4x12x1024x512.ShapeCasts S48x1024x512
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  inb_S512_S512_0 : ∀ a, (![0] : Fin 1 → Nat) a + S512.size a ≤ S512.size a
  h_S512 : 0 < S512.numel
  shapeCasts_S512_S1x512 : S512.ShapeCasts S1x512
  broadcasts_S1x512_S1024x512 : S1x512.Broadcasts S1024x512
  reduces_S1024x1024_S1024 : S1024x1024.Reduces [1] S1024
  shapeCasts_S1024_S1024x1 : S1024.ShapeCasts S1024x1
  broadcasts_S1024x1_S1024x1024 : S1024x1.Broadcasts S1024x1024
  iota_S1024x1024_d0_w32 : S1024x1024.Iotas .tc 32 [0]
  iota_S1024x1024_d1_w32 : S1024x1024.Iotas .tc 32 [1]
  broadcasts_S1024x1_S1024x512 : S1024x1.Broadcasts S1024x512
  shapeCasts_S1024x512_S1x1024x512 : S1024x512.ShapeCasts S1x1024x512
  shapeCasts_S48x1024x512_S4x12x1024x512 : S48x1024x512.ShapeCasts S4x12x1024x512
  dot_S1024x512_S512x512_S1024x512_1_0_0_1_n_n_wf : DotDims.WF S1024x512 S512x512 S1024x512 [1] [0] [0] [1] [] []
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x512.size a ≤ S48x1024x512.size a
  hwx0_0 : ∀ i : grid0.Coords, EltTy.bits .f32 = 32 ∨ (Rect.block (s := S48x1024x512) S1x1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S512.size a
  hwx0_2 : ∀ i : grid0.Coords, EltTy.bits .f32 = 32 ∨ (Rect.block (s := S512) S512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .f32 = 32 ∨ (Rect.block (s := S512x512) S512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S512.size a
  hwx0_4 : ∀ i : grid0.Coords, EltTy.bits .f32 = 32 ∨ (Rect.block (s := S512) S512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .f32 = 32 ∨ (Rect.block (s := S512x512) S512x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512.size a ≤ S512.size a
  hwx0_6 : ∀ i : grid0.Coords, EltTy.bits .f32 = 32 ∨ (Rect.block (s := S512) S512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1024x512.size a ≤ S48x1024x512.size a
  hwx0_7 : ∀ i : grid0.Coords, EltTy.bits .f32 = 32 ∨ (Rect.block (s := S48x1024x512) S1x1024x512.size (cc0_transform_7 i) (hinb0_7 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_v0) S1x1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v1) S1x1024x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4x12x1024x512 : Shape := ⟨4, ![4, 12, 1024, 512]⟩
abbrev S512x512 : Shape := ⟨2, ![512, 512]⟩
abbrev S512 : Shape := ⟨1, ![512]⟩
abbrev S1x1x1x512 : Shape := ⟨4, ![1, 1, 1, 512]⟩
abbrev S4x12x1024x1024 : Shape := ⟨4, ![4, 12, 1024, 1024]⟩
abbrev S_ : Shape := ⟨0, ![]⟩
abbrev S4x12x1024 : Shape := ⟨3, ![4, 12, 1024]⟩
abbrev S4x12x1024x1 : Shape := ⟨4, ![4, 12, 1024, 1]⟩
abbrev S1024 : Shape := ⟨1, ![1024]⟩
abbrev S1024x1 : Shape := ⟨2, ![1024, 1]⟩
abbrev S1024x2 : Shape := ⟨2, ![1024, 2]⟩

abbrev nBuf : Space → Nat
  | .hbm => 60
  | .vmem => 0
  | .smem => 0
  | _ => 0

abbrev bufTy : (tb : Table) → Fin (tcTables nBuf tb) → BufTy
  | .hbm, ⟨0, _⟩ => ⟨S4x12x1024x512, .f32⟩
  | .hbm, ⟨1, _⟩ => ⟨S512x512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S4x12x1024x512, .f32⟩
  | .hbm, ⟨8, _⟩ => ⟨S1x1x1x512, .f32⟩
  | .hbm, ⟨9, _⟩ => ⟨S4x12x1024x512, .f32⟩
  | .hbm, ⟨10, _⟩ => ⟨S4x12x1024x512, .f32⟩
  | .hbm, ⟨11, _⟩ => ⟨S4x12x1024x512, .f32⟩
  | .hbm, ⟨12, _⟩ => ⟨S1x1x1x512, .f32⟩
  | .hbm, ⟨13, _⟩ => ⟨S4x12x1024x512, .f32⟩
  | .hbm, ⟨14, _⟩ => ⟨S4x12x1024x512, .f32⟩
  | .hbm, ⟨15, _⟩ => ⟨S4x12x1024x512, .f32⟩
  | .hbm, ⟨16, _⟩ => ⟨S1x1x1x512, .f32⟩
  | .hbm, ⟨17, _⟩ => ⟨S4x12x1024x512, .f32⟩
  | .hbm, ⟨18, _⟩ => ⟨S4x12x1024x512, .f32⟩
  | .hbm, ⟨19, _⟩ => ⟨S4x12x1024x1024, .f32⟩
  | .hbm, ⟨20, _⟩ => ⟨S_, .f32⟩
  | .hbm, ⟨21, _⟩ => ⟨S4x12x1024x1024, .f32⟩
  | .hbm, ⟨22, _⟩ => ⟨S4x12x1024x1024, .f32⟩
  | .hbm, ⟨23, _⟩ => ⟨S_, .f32⟩
  | .hbm, ⟨24, _⟩ => ⟨S4x12x1024, .f32⟩
  | .hbm, ⟨25, _⟩ => ⟨S_, .f32⟩
  | .hbm, ⟨26, _⟩ => ⟨S4x12x1024, .f32⟩
  | .hbm, ⟨27, _⟩ => ⟨S4x12x1024, .f32⟩
  | .hbm, ⟨28, _⟩ => ⟨S4x12x1024x1, .f32⟩
  | .hbm, ⟨29, _⟩ => ⟨S4x12x1024x1024, .f32⟩
  | .hbm, ⟨30, _⟩ => ⟨S4x12x1024x1024, .f32⟩
  | .hbm, ⟨31, _⟩ => ⟨S4x12x1024x1024, .f32⟩
  | .hbm, ⟨32, _⟩ => ⟨S_, .f32⟩
  | .hbm, ⟨33, _⟩ => ⟨S4x12x1024, .f32⟩
  | .hbm, ⟨34, _⟩ => ⟨S4x12x1024x1, .f32⟩
  | .hbm, ⟨35, _⟩ => ⟨S4x12x1024x1024, .f32⟩
  | .hbm, ⟨36, _⟩ => ⟨S4x12x1024x1024, .f32⟩
  | .hbm, ⟨37, _⟩ => ⟨S1024, .i32⟩
  | .hbm, ⟨38, _⟩ => ⟨S1024, .i32⟩
  | .hbm, ⟨39, _⟩ => ⟨S_, .i32⟩
  | .hbm, ⟨40, _⟩ => ⟨S1024, .i32⟩
  | .hbm, ⟨41, _⟩ => ⟨S1024, .i1⟩
  | .hbm, ⟨42, _⟩ => ⟨S_, .i32⟩
  | .hbm, ⟨43, _⟩ => ⟨S1024, .i32⟩
  | .hbm, ⟨44, _⟩ => ⟨S1024, .i32⟩
  | .hbm, ⟨45, _⟩ => ⟨S1024, .i32⟩
  | .hbm, ⟨46, _⟩ => ⟨S_, .i32⟩
  | .hbm, ⟨47, _⟩ => ⟨S1024, .i32⟩
  | .hbm, ⟨48, _⟩ => ⟨S1024, .i1⟩
  | .hbm, ⟨49, _⟩ => ⟨S_, .i32⟩
  | .hbm, ⟨50, _⟩ => ⟨S1024, .i32⟩
  | .hbm, ⟨51, _⟩ => ⟨S1024, .i32⟩
  | .hbm, ⟨52, _⟩ => ⟨S1024, .i32⟩
  | .hbm, ⟨53, _⟩ => ⟨S1024x1, .i32⟩
  | .hbm, ⟨54, _⟩ => ⟨S1024x1, .i32⟩
  | .hbm, ⟨55, _⟩ => ⟨S1024x2, .i32⟩
  | .hbm, ⟨56, _⟩ => ⟨S4x12x1024, .f32⟩
  | .hbm, ⟨57, _⟩ => ⟨S4x12x1024x1, .f32⟩
  | .hbm, ⟨58, _⟩ => ⟨S4x12x1024x512, .f32⟩
  | .hbm, ⟨59, _⟩ => ⟨S4x12x1024x512, .f32⟩
  | _, _ => ⟨S4x12x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_call0_v0 : Ref sig .tc := ⟨.hbm, 37, rfl⟩
abbrev main_call0_v1 : Ref sig .tc := ⟨.hbm, 38, rfl⟩
abbrev main_call0_c : Ref sig .tc := ⟨.hbm, 39, rfl⟩
abbrev main_call0_v2 : Ref sig .tc := ⟨.hbm, 40, rfl⟩
abbrev main_call0_v3 : Ref sig .tc := ⟨.hbm, 41, rfl⟩
abbrev main_call0_c_0 : Ref sig .tc := ⟨.hbm, 42, rfl⟩
abbrev main_call0_v4 : Ref sig .tc := ⟨.hbm, 43, rfl⟩
abbrev main_call0_v5 : Ref sig .tc := ⟨.hbm, 44, rfl⟩
abbrev main_call0_v6 : Ref sig .tc := ⟨.hbm, 45, rfl⟩
abbrev main_call0_c_1 : Ref sig .tc := ⟨.hbm, 46, rfl⟩
abbrev main_call0_v7 : Ref sig .tc := ⟨.hbm, 47, rfl⟩
abbrev main_call0_v8 : Ref sig .tc := ⟨.hbm, 48, rfl⟩
abbrev main_call0_c_2 : Ref sig .tc := ⟨.hbm, 49, rfl⟩
abbrev main_call0_v9 : Ref sig .tc := ⟨.hbm, 50, rfl⟩
abbrev main_call0_v10 : Ref sig .tc := ⟨.hbm, 51, rfl⟩
abbrev main_call0_v11 : Ref sig .tc := ⟨.hbm, 52, rfl⟩
abbrev main_call0_v12 : Ref sig .tc := ⟨.hbm, 53, rfl⟩
abbrev main_call0_v13 : Ref sig .tc := ⟨.hbm, 54, rfl⟩
abbrev main_call0_v14 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩

abbrev nD : Nat := 1
abbrev τ : Topo := Topo.v7x

variable {F : FTy → Type} [FloatOps F]

class Facts₀ : Prop where
  bcast_S512_S1x1x1x512_3 : S512.BroadcastsInDim S1x1x1x512 (![3] : Fin 1 → Fin S1x1x1x512.rank)
  bcast_S1x1x1x512_S4x12x1024x512_0_1_2_3 : S1x1x1x512.BroadcastsInDim S4x12x1024x512 (![0, 1, 2, 3] : Fin 4 → Fin S4x12x1024x512.rank)
  bcast_S_S4x12x1024x1024 : S_.BroadcastsInDim S4x12x1024x1024 (![] : Fin 0 → Fin S4x12x1024x1024.rank)
  reducesTo_S4x12x1024x1024_S4x12x1024_d3 : S4x12x1024x1024.ReducesTo [3] S4x12x1024
  h_S_ : 0 < S_.numel
  bcast_S_S4x12x1024 : S_.BroadcastsInDim S4x12x1024 (![] : Fin 0 → Fin S4x12x1024.rank)
  bcast_S4x12x1024_S4x12x1024x1_0_1_2 : S4x12x1024.BroadcastsInDim S4x12x1024x1 (![0, 1, 2] : Fin 3 → Fin S4x12x1024x1.rank)
  bcast_S4x12x1024x1_S4x12x1024x1024_0_1_2_3 : S4x12x1024x1.BroadcastsInDim S4x12x1024x1024 (![0, 1, 2, 3] : Fin 4 → Fin S4x12x1024x1024.rank)
  bcast_S_S1024 : S_.BroadcastsInDim S1024 (![] : Fin 0 → Fin S1024.rank)
  bcast_S1024_S1024x1_0 : S1024.BroadcastsInDim S1024x1 (![0] : Fin 1 → Fin S1024x1.rank)
  concatenates_S1024x1_S1024x1_S1024x2_d1 : Shape.Concatenates [S1024x1, S1024x1] S1024x2 1
  bcast_S4x12x1024x1_S4x12x1024x512_0_1_2_3 : S4x12x1024x1.BroadcastsInDim S4x12x1024x512 (![0, 1, 2, 3] : Fin 4 → Fin S4x12x1024x512.rank)
  dot_S4x12x1024x512_S512x512_S4x12x1024x512_3_0_012_1_n_n_wf : DotDims.WF S4x12x1024x512 S512x512 S4x12x1024x512 [3] [0] [0, 1, 2] [1] [] []
  dot_S4x12x1024x512_S4x12x1024x512_S4x12x1024x1024_3_3_2_2_01_01_wf : DotDims.WF S4x12x1024x512 S4x12x1024x512 S4x12x1024x1024 [3] [3] [2] [2] [0, 1] [0, 1]
  gather_S4x12x1024x1024_S1024x2_S4x12x1024_01_23_n_n_23_1_41211_wf : GatherDims.WF S4x12x1024x1024 S1024x2 S4x12x1024 [0, 1] [2, 3] [] [2, 3] [] 1 ![4, 12, 1, 1]

variable [Facts₀]

def dot_S4x12x1024x512_S512x512_S4x12x1024x512_3_0_012_1_n_n : DotDims S4x12x1024x512 S512x512 S4x12x1024x512 where
  lhsContracting := [3]
  rhsContracting := [0]
  lhsNonContracting := [0, 1, 2]
  rhsNonContracting := [1]
  lhsBatch := []
  rhsBatch := []
  wf := dot_S4x12x1024x512_S512x512_S4x12x1024x512_3_0_012_1_n_n_wf
def dot_S4x12x1024x512_S4x12x1024x512_S4x12x1024x1024_3_3_2_2_01_01 : DotDims S4x12x1024x512 S4x12x1024x512 S4x12x1024x1024 where
  lhsContracting := [3]
  rhsContracting := [3]
  lhsNonContracting := [2]
  rhsNonContracting := [2]
  lhsBatch := [0, 1]
  rhsBatch := [0, 1]
  wf := dot_S4x12x1024x512_S4x12x1024x512_S4x12x1024x1024_3_3_2_2_01_01_wf
def gather_S4x12x1024x1024_S1024x2_S4x12x1024_01_23_n_n_23_1_41211 : GatherDims S4x12x1024x1024 S1024x2 S4x12x1024 where
  offsetDims := [0, 1]
  collapsedSliceDims := [2, 3]
  operandBatchingDims := []
  startIndicesBatchingDims := []
  startIndexMap := [2, 3]
  indexVectorDim := 1
  sliceSizes := ![4, 12, 1, 1]
  wf := gather_S4x12x1024x1024_S1024x2_S4x12x1024_01_23_n_n_23_1_41211_wf

class Facts : Prop extends Facts₀ where

variable [Facts]
-- ==== Proof.KernelOps.lean ====
/-
  The vector operations of the kernel body, each read at one entry, at the ideal values.

  * A product of a [1024, 512] matrix with a [512, 512] matrix into a zero accumulator is, at (n, g), the sum over k of
    l[n,k]·r[k,g]; a product of two [1024, 512] matrices contracted over their second axes is, at (n, m), the sum over k
    of l[n,k]·r[m,k]. Both are the one-axis contraction re-indexed by that axis's coordinate.
  * A bias vector [512] re-laid as one row [1, 512] and spread over [1024, 512] is, at (n, g), the vector at g.
  * Comparing the row coordinate with the column coordinate of a [1024, 1024] array gives the diagonal's mask: the bit at
    (n, m) is 1 exactly when n = m (both coordinates are below 2^32, so their 32-bit words differ when they do).
  * Summing a row in which every entry off the diagonal has been replaced by 0 leaves the diagonal entry.
-/
import proofs.«118305_j91036126806755_2_alg».proof.Proof.Gen.KernelIdeal
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BodyOps

open Cert.KernelIdeal Cert.KernelIdeal.Facts₀ Cert.KernelIdeal.Facts Idealize.ShloMosaic Idealize.ShloMosaic.ValueIdx
open scoped BigOperators

/-! ## Rows times columns -/

theorem lhs_rowcol_0 (j : S1024x512.Idx) (q : dot_S1024x512_S512x512_S1024x512_1_0_0_1_n_n.contr.Idx) :
    (dot_S1024x512_S512x512_S1024x512_1_0_0_1_n_n.lhsIdx j q 0).val = (j 0).val := by
  unfold DotDims.lhsIdx
  rw [dif_neg (show ¬(0 : Fin S1024x512.rank) ∈ dot_S1024x512_S512x512_S1024x512_1_0_0_1_n_n.lhsBatch by decide), dif_pos (show (0 : Fin S1024x512.rank) ∈ dot_S1024x512_S512x512_S1024x512_1_0_0_1_n_n.lhsNonContracting by decide)]
  rfl

theorem rhs_rowcol_1 (j : S1024x512.Idx) (q : dot_S1024x512_S512x512_S1024x512_1_0_0_1_n_n.contr.Idx) :
    (dot_S1024x512_S512x512_S1024x512_1_0_0_1_n_n.rhsIdx j q 1).val = (j 1).val := by
  unfold DotDims.rhsIdx
  rw [dif_neg (show ¬(1 : Fin S512x512.rank) ∈ dot_S1024x512_S512x512_S1024x512_1_0_0_1_n_n.rhsBatch by decide), dif_pos (show (1 : Fin S512x512.rank) ∈ dot_S1024x512_S512x512_S1024x512_1_0_0_1_n_n.rhsNonContracting by decide)]
  rfl

/-- Entry (n, g) of a [1024, 512] by [512, 512] product into a zero accumulator: `Σ_k l[n,k]·r[k,g]`. -/
theorem matmul_rows_cols_apply {φ₁ φ₂ : FTy} (l : FVec Ideal S1024x512 φ₁) (r : FVec Ideal S512x512 φ₂) (n : Fin 1024) (g : Fin 512) :
    matmul dot_S1024x512_S512x512_S1024x512_1_0_0_1_n_n none l r (constant S1024x512 .f32 0x00000000#32) (ix2 n g)
      = ∑ k : Fin 512, l (ix2 n k) * r (ix2 k g) := by
  refine (Ideal.matmul_constant_zero_apply dot_S1024x512_S512x512_S1024x512_1_0_0_1_n_n none l r (ix2 n g)).trans ?_
  rw [← Equiv.sum_comp (contrEquiv1 dot_S1024x512_S512x512_S1024x512_1_0_0_1_n_n 512 rfl rfl).symm]
  refine Finset.sum_congr rfl fun k _ => ?_
  have hk := contrEquiv1_symm_val dot_S1024x512_S512x512_S1024x512_1_0_0_1_n_n 512 rfl rfl k
  have el : dot_S1024x512_S512x512_S1024x512_1_0_0_1_n_n.lhsIdx (ix2 n g) ((contrEquiv1 dot_S1024x512_S512x512_S1024x512_1_0_0_1_n_n 512 rfl rfl).symm k) = ix2 n k := funext fun a => Fin.ext (by
    match a with
    | ⟨0, _⟩ => exact lhs_rowcol_0 _ _
    | ⟨1, _⟩ => exact (dot_S1024x512_S512x512_S1024x512_1_0_0_1_n_n.lhsIdx_val_of_single rfl _ _).trans hk)
  have er : dot_S1024x512_S512x512_S1024x512_1_0_0_1_n_n.rhsIdx (ix2 n g) ((contrEquiv1 dot_S1024x512_S512x512_S1024x512_1_0_0_1_n_n 512 rfl rfl).symm k) = ix2 k g := funext fun a => Fin.ext (by
    match a with
    | ⟨0, _⟩ => exact (dot_S1024x512_S512x512_S1024x512_1_0_0_1_n_n.rhsIdx_val_of_single rfl _ _).trans hk
    | ⟨1, _⟩ => exact rhs_rowcol_1 _ _)
  rw [el, er]

/-! ## Rows times rows -/

theorem lhs_rowrow_0 (j : S1024x1024.Idx) (q : dot_S1024x512_S1024x512_S1024x1024_1_1_0_0_n_n.contr.Idx) :
    (dot_S1024x512_S1024x512_S1024x1024_1_1_0_0_n_n.lhsIdx j q 0).val = (j 0).val := by
  unfold DotDims.lhsIdx
  rw [dif_neg (show ¬(0 : Fin S1024x512.rank) ∈ dot_S1024x512_S1024x512_S1024x1024_1_1_0_0_n_n.lhsBatch by decide), dif_pos (show (0 : Fin S1024x512.rank) ∈ dot_S1024x512_S1024x512_S1024x1024_1_1_0_0_n_n.lhsNonContracting by decide)]
  rfl

theorem rhs_rowrow_0 (j : S1024x1024.Idx) (q : dot_S1024x512_S1024x512_S1024x1024_1_1_0_0_n_n.contr.Idx) :
    (dot_S1024x512_S1024x512_S1024x1024_1_1_0_0_n_n.rhsIdx j q 0).val = (j 1).val := by
  unfold DotDims.rhsIdx
  rw [dif_neg (show ¬(0 : Fin S1024x512.rank) ∈ dot_S1024x512_S1024x512_S1024x1024_1_1_0_0_n_n.rhsBatch by decide), dif_pos (show (0 : Fin S1024x512.rank) ∈ dot_S1024x512_S1024x512_S1024x1024_1_1_0_0_n_n.rhsNonContracting by decide)]
  rfl

/-- Entry (n, m) of a product of two [1024, 512] matrices over their second axes, into a zero accumulator:
    `Σ_k l[n,k]·r[m,k]`. -/
theorem matmul_rows_rows_apply {φ₁ φ₂ : FTy} (l : FVec Ideal S1024x512 φ₁) (r : FVec Ideal S1024x512 φ₂) (n m : Fin 1024) :
    matmul dot_S1024x512_S1024x512_S1024x1024_1_1_0_0_n_n none l r (constant S1024x1024 .f32 0x00000000#32) (ix2 n m)
      = ∑ k : Fin 512, l (ix2 n k) * r (ix2 m k) := by
  refine (Ideal.matmul_constant_zero_apply dot_S1024x512_S1024x512_S1024x1024_1_1_0_0_n_n none l r (ix2 n m)).trans ?_
  rw [← Equiv.sum_comp (contrEquiv1 dot_S1024x512_S1024x512_S1024x1024_1_1_0_0_n_n 512 rfl rfl).symm]
  refine Finset.sum_congr rfl fun k _ => ?_
  have hk := contrEquiv1_symm_val dot_S1024x512_S1024x512_S1024x1024_1_1_0_0_n_n 512 rfl rfl k
  have el : dot_S1024x512_S1024x512_S1024x1024_1_1_0_0_n_n.lhsIdx (ix2 n m) ((contrEquiv1 dot_S1024x512_S1024x512_S1024x1024_1_1_0_0_n_n 512 rfl rfl).symm k) = ix2 n k := funext fun a => Fin.ext (by
    match a with
    | ⟨0, _⟩ => exact lhs_rowrow_0 _ _
    | ⟨1, _⟩ => exact (dot_S1024x512_S1024x512_S1024x1024_1_1_0_0_n_n.lhsIdx_val_of_single rfl _ _).trans hk)
  have er : dot_S1024x512_S1024x512_S1024x1024_1_1_0_0_n_n.rhsIdx (ix2 n m) ((contrEquiv1 dot_S1024x512_S1024x512_S1024x1024_1_1_0_0_n_n 512 rfl rfl).symm k) = ix2 m k := funext fun a => Fin.ext (by
    match a with
    | ⟨0, _⟩ => exact rhs_rowrow_0 _ _
    | ⟨1, _⟩ => exact (dot_S1024x512_S1024x512_S1024x1024_1_1_0_0_n_n.rhsIdx_val_of_single rfl _ _).trans hk)
  rw [el, er]

/-! ## A bias spread over the rows -/

/-- A vector [512] re-laid as the row [1, 512] and spread over [1024, 512], at (n, g): the vector at g. -/
theorem bias_rows_apply {α : Type} (β : S512.Idx → α) (n : Fin 1024) (g : Fin 512) :
    broadcastTo S1024x512 (shapeCast S1x512 β shapeCasts_S512_S1x512) broadcasts_S1x512_S1024x512 (ix2 n g) = β (ix1 g) :=
  (broadcastTo_1b_ab_apply _ broadcasts_S1x512_S1024x512 n g).trans (shapeCast_a_1a_apply β shapeCasts_S512_S1x512 0 g)

/-! ## The diagonal's mask and the masked row sum -/

/-- Two coordinates below 1024 have the same 32-bit word only when they are equal. -/
theorem ofNat_eq_iff (n m : Fin 1024) : BitVec.ofNat 32 n.val = BitVec.ofNat 32 m.val ↔ n = m := by
  constructor
  · intro e
    have h := congrArg BitVec.toNat e
    simp only [BitVec.toNat_ofNat] at h
    have hn := n.isLt; have hm := m.isLt
    apply Fin.ext
    omega
  · intro e; rw [e]

/-- The row coordinate compared with the column coordinate, at (n, m): the bit 1 exactly on the diagonal. -/
theorem diag_mask_apply (n m : Fin 1024) :
    cmpi .eq (iota .tc S1024x1024 32 [0] iota_S1024x1024_d0_w32) (iota .tc S1024x1024 32 [1] iota_S1024x1024_d1_w32) (ix2 n m)
      = if n = m then 1#1 else 0#1 := by
  show IntOp.cmpi .eq (iota .tc S1024x1024 32 [0] iota_S1024x1024_d0_w32 (ix2 n m)) (iota .tc S1024x1024 32 [1] iota_S1024x1024_d1_w32 (ix2 n m)) = _
  rw [iota_single_apply, iota_single_apply]
  show BitVec.ofBool (BitVec.ofNat 32 n.val == BitVec.ofNat 32 m.val) = _
  by_cases h : n = m
  · rw [if_pos h, h]; simp
  · rw [if_neg h]
    have hne : ¬ BitVec.ofNat 32 n.val = BitVec.ofNat 32 m.val := fun e => h ((ofNat_eq_iff n m).mp e)
    have hb : (BitVec.ofNat 32 n.val == BitVec.ofNat 32 m.val) = false := beq_eq_false_iff_ne.mpr hne
    rw [hb]; rfl

/-- A row summed after every entry off the diagonal has been replaced by 0 is the diagonal entry. -/
theorem sum_select_diag (p : Fin 1024 → EReal) (n : Fin 1024) :
    ∑ m : Fin 1024, Scalar.select (if n = m then (1#1 : BitVec 1) else 0#1) (p m) (0 : EReal) = p n := by
  have hterm : ∀ m : Fin 1024, Scalar.select (if n = m then (1#1 : BitVec 1) else 0#1) (p m) (0 : EReal) = if n = m then p m else 0 := by
    intro m
    by_cases h : n = m
    · rw [if_pos h, if_pos h]; exact select_one _ _
    · rw [if_neg h, if_neg h]; exact select_zero _ _
  rw [Finset.sum_congr rfl fun m _ => hterm m, Finset.sum_ite_eq]
  simp

end Cert.KernelIdeal.BodyOps

end
-- ==== Proof.Spec.lean ====
/-
  The function both programs compute: for each of 48 independent row blocks, the DIAGONAL of a row softmax of scaled
  query–key scores, times the value projection.

  Write X for the input re-laid as 48 blocks of 1024 rows of 512 features. Three dense layers with bias act on each row:
      Q[t,n,g] = Σ_k X[t,n,k]·Wq[k,g] + bq[g],   K likewise with (Wk, bk),   V likewise with (Wv, bv).
  The score of query row n against key row m of the same block is the scaled inner product
      s[t,n,m] = (Σ_k Q[t,n,k]·K[t,m,k]) · c,        c the one float literal both programs carry.
  A row softmax subtracts the row maximum M[t,n] (folded from -∞), exponentiates and divides by the row's sum; only its
  diagonal entry is kept,
      d[t,n] = exp(s[t,n,n] - M[t,n]) / Σ_m exp(s[t,n,m] - M[t,n]),
  and the result is d[t,n]·V[t,n,f]. The four-axis result is that array re-laid from [48,1024,512] to [4,12,1024,512];
  block t = 12·b + u is batch entry (b, u), since both layouts list the same row-major order.
-/
import Idealize.ShloMosaic.Lib.ValueIdx
import Idealize.ShloMosaic.Lib.Pipeline.Value
import Idealize.ShloMosaic.PureOps.Ideal

noncomputable section

namespace Cert.DiagAttention

open Idealize.ShloMosaic Idealize.ShloMosaic.ValueIdx
open scoped BigOperators

/-- 48 blocks of 1024 rows of 512 features. -/
abbrev Rows : Shape := ⟨3, ![48, 1024, 512]⟩
/-- The same entries as a [4, 12] batch of such blocks. -/
abbrev Batched : Shape := ⟨4, ![4, 12, 1024, 512]⟩
/-- A dense layer's weight matrix. -/
abbrev Weight : Shape := ⟨2, ![512, 512]⟩
/-- A dense layer's bias. -/
abbrev Bias : Shape := ⟨1, ![512]⟩

theorem batched_to_rows : Batched.ShapeCasts Rows := by decide
theorem rows_to_batched : Rows.ShapeCasts Batched := by decide

/-- Block `12·b + u` of the 48 is batch entry `(b, u)`. -/
def blockOf (b : Fin 4) (u : Fin 12) : Fin 48 := ⟨12 * b.val + u.val, by have := b.isLt; have := u.isLt; omega⟩

/-- A dense layer with bias at row `(t, n)`, output feature `g`: `Σ_k X[t,n,k]·W[k,g] + β[g]`. -/
def dense (X : Rows.Idx → EReal) (W : Weight.Idx → EReal) (β : Bias.Idx → EReal) (t : Fin 48) (n : Fin 1024) (g : Fin 512) : EReal :=
  (∑ k : Fin 512, X (ix3 t n k) * W (ix2 k g)) + β (ix1 g)

/-- The scaled score of query row `n` against key row `m` of block `t`. -/
def score (X : Rows.Idx → EReal) (Wq : Weight.Idx → EReal) (bq : Bias.Idx → EReal) (Wk : Weight.Idx → EReal) (bk : Bias.Idx → EReal)
    (t : Fin 48) (n m : Fin 1024) : EReal :=
  (∑ k : Fin 512, dense X Wq bq t n k * dense X Wk bk t m k) * Ideal.ofBits .f32 0x3D3504F3#32

/-- The maximum of query row `n`'s scores, folded from -∞. -/
def rowMax (X : Rows.Idx → EReal) (Wq : Weight.Idx → EReal) (bq : Bias.Idx → EReal) (Wk : Weight.Idx → EReal) (bk : Bias.Idx → EReal)
    (t : Fin 48) (n : Fin 1024) : EReal :=
  (Finset.univ : Finset (Fin 1024)).fold max (Ideal.ofBits .f32 0xFF800000#32) (fun m => score X Wq bq Wk bk t n m)

/-- The exponential of a score less its row's maximum. -/
def expTerm (X : Rows.Idx → EReal) (Wq : Weight.Idx → EReal) (bq : Bias.Idx → EReal) (Wk : Weight.Idx → EReal) (bk : Bias.Idx → EReal)
    (t : Fin 48) (n m : Fin 1024) : EReal :=
  Ideal.exp (score X Wq bq Wk bk t n m - rowMax X Wq bq Wk bk t n)

/-- The diagonal entry of the row softmax: row `n`'s own exponential over the row's sum. -/
def diagProb (X : Rows.Idx → EReal) (Wq : Weight.Idx → EReal) (bq : Bias.Idx → EReal) (Wk : Weight.Idx → EReal) (bk : Bias.Idx → EReal)
    (t : Fin 48) (n : Fin 1024) : EReal :=
  Ideal.div (expTerm X Wq bq Wk bk t n n) (∑ m : Fin 1024, expTerm X Wq bq Wk bk t n m)

/-- Entry `(t, n, f)` of the result over the 48 blocks: the diagonal probability of row `n` times its value projection. -/
def rowEntry (X : Rows.Idx → EReal) (Wq : Weight.Idx → EReal) (bq : Bias.Idx → EReal) (Wk : Weight.Idx → EReal) (bk : Bias.Idx → EReal)
    (Wv : Weight.Idx → EReal) (bv : Bias.Idx → EReal) (t : Fin 48) (n : Fin 1024) (f : Fin 512) : EReal :=
  diagProb X Wq bq Wk bk t n * dense X Wv bv t n f

/-- The result over the 48 blocks, as one array. -/
def rowsOut (X : Rows.Idx → EReal) (Wq : Weight.Idx → EReal) (bq : Bias.Idx → EReal) (Wk : Weight.Idx → EReal) (bk : Bias.Idx → EReal)
    (Wv : Weight.Idx → EReal) (bv : Bias.Idx → EReal) : Rows.Idx → EReal :=
  fun j => rowEntry X Wq bq Wk bk Wv bv ⟨(j 0).val, (j 0).isLt⟩ ⟨(j 1).val, (j 1).isLt⟩ ⟨(j 2).val, (j 2).isLt⟩

theorem rowsOut_apply (X : Rows.Idx → EReal) (Wq : Weight.Idx → EReal) (bq : Bias.Idx → EReal) (Wk : Weight.Idx → EReal) (bk : Bias.Idx → EReal)
    (Wv : Weight.Idx → EReal) (bv : Bias.Idx → EReal) (t : Fin 48) (n : Fin 1024) (f : Fin 512) :
    rowsOut X Wq bq Wk bk Wv bv (ix3 t n f) = rowEntry X Wq bq Wk bk Wv bv t n f := rfl

/-- THE RESULT: the four-axis input re-laid as 48 blocks, the blocks' result, re-laid back. -/
def result (x : Batched.Idx → EReal) (Wq : Weight.Idx → EReal) (bq : Bias.Idx → EReal) (Wk : Weight.Idx → EReal) (bk : Bias.Idx → EReal)
    (Wv : Weight.Idx → EReal) (bv : Bias.Idx → EReal) : Batched.Idx → EReal :=
  shapeCast Batched (rowsOut (shapeCast Rows x batched_to_rows) Wq bq Wk bk Wv bv) rows_to_batched

/-- The input re-laid as 48 blocks, at block `12·b + u`, is the input at batch entry `(b, u)`. -/
theorem relaid_input_apply {α : Type} (x : Batched.Idx → α) (b : Fin 4) (u : Fin 12) (n : Fin 1024) (k : Fin 512) :
    shapeCast Rows x batched_to_rows (ix3 (blockOf b u) n k) = x (ix4 b u n k) :=
  shapeCast_apply x batched_to_rows _ _ (by
    rw [Shape.rowMajor_val_four, Shape.rowMajor_val_three]
    show ((b.val * 12 + u.val) * 1024 + n.val) * 512 + k.val = ((12 * b.val + u.val) * 1024 + n.val) * 512 + k.val
    omega)

/-- An array over the 48 blocks re-laid to four axes, at `(b, u, n, f)`, is the array at block `12·b + u`. -/
theorem relaid_output_apply {α : Type} (y : Rows.Idx → α) (b : Fin 4) (u : Fin 12) (n : Fin 1024) (f : Fin 512) :
    shapeCast Batched y rows_to_batched (ix4 b u n f) = y (ix3 (blockOf b u) n f) :=
  shapeCast_apply y rows_to_batched _ _ (by
    rw [Shape.rowMajor_val_four, Shape.rowMajor_val_three]
    show ((12 * b.val + u.val) * 1024 + n.val) * 512 + f.val = ((b.val * 12 + u.val) * 1024 + n.val) * 512 + f.val
    omega)

/-- So the result at `(b, u, n, f)` is the blocks' entry `(12·b + u, n, f)` of the re-laid input. -/
theorem result_apply (x : Batched.Idx → EReal) (Wq : Weight.Idx → EReal) (bq : Bias.Idx → EReal) (Wk : Weight.Idx → EReal) (bk : Bias.Idx → EReal)
    (Wv : Weight.Idx → EReal) (bv : Bias.Idx → EReal) (b : Fin 4) (u : Fin 12) (n : Fin 1024) (f : Fin 512) :
    result x Wq bq Wk bk Wv bv (ix4 b u n f)
      = rowEntry (shapeCast Rows x batched_to_rows) Wq bq Wk bk Wv bv (blockOf b u) n f :=
  (relaid_output_apply _ b u n f).trans (rowsOut_apply _ Wq bq Wk bk Wv bv (blockOf b u) n f)

end Cert.DiagAttention

end
-- ==== Proof.LibColumn.lean ====
/-
  Two layout operations of a "keep the reduced axis" column, read at an index given by its coordinates.

  A row-wise reduction with the reduced axis kept produces a column of shape [a, 1]: a vector [a] re-laid as [a, 1],
  later spread over [a, b]. Both are re-indexings: the re-laid column at (i, 0) is the vector at i, and the spread column
  at (i, j) is the column at (i, 0).
-/
import Idealize.ShloMosaic.Lib.Pipeline.Value
import Idealize.ShloMosaic.Lib.ValueIdx

namespace Cert.LibColumn

open Idealize.ShloMosaic Idealize.ShloMosaic.ValueIdx

variable {α : Type}

/-- A vector `[a]` re-laid as a column `[a, 1]` reads, at `(i, 0)`, the vector at `i`: the row-major position is the same. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread over `[a, b]` reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibColumn
-- ==== Proof.LibSoftmaxRow.lean ====
/-
  A row-wise softmax over a matrix [a, b] of extended reals, in the form a vector unit computes it, read at one entry.

  The row maximum is a maximum-reduction over axis 1 into a vector [a], re-laid as a column [a, 1] and spread back over
  [a, b]; it is subtracted, the exponential taken, the exponentials summed over axis 1 by an add-reduction treated the
  same way, and the quotient formed. Because max and + on the extended reals commute and associate, each reduction at
  row r is the fold (the sum) over the row's entries, whatever order it visits them in. So entry (r, k) of the result is
      exp(s(r,k) - M_r) / sum_k' exp(s(r,k') - M_r),      M_r the maximum of row r folded from the accumulator's value.
-/
import Idealize.ShloMosaic.Lib.ValueIdx
import Idealize.ShloMosaic.Lib.Pipeline.Value
import Idealize.ShloMosaic.PureOps.Ideal.Laws
import Idealize.ShloMosaic.PureOps.Reduce
import proofs.«118305_j91036126806755_2_alg».proof.Proof.LibColumn

noncomputable section

namespace Cert.LibSoftmaxRow

open Idealize.ShloMosaic Idealize.ShloMosaic.ValueIdx
open scoped BigOperators

set_option backward.isDefEq.respectTransparency.types false in
/-- Over row `r` of the reduced vector, inserting coordinate `k` on the reduced axis 1 gives the matrix index (r, k). -/
theorem lift_row {a b : ℕ} (h : (⟨2, ![a, b]⟩ : Shape).Reduces [1] ⟨1, ![a]⟩) (r : Fin a) (k : Fin b) :
    h.lift (ix1 r) k = ix2 r k := by
  funext c
  apply Fin.ext
  rw [h.lift_val]
  match c with
  | ⟨0, _⟩ => rfl
  | ⟨1, _⟩ => rfl

/-- A maximum-reduction over axis 1, at row `r`: the fold of max from the accumulator's value over the row's entries. -/
theorem rowMax_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.maximumf.neutral .f32 hφ) (r : Fin a) :
    multiReduction .maximumf [1] ⟨1, ![a]⟩ src acc h hφ hacc (ix1 r)
      = (Finset.univ : Finset (Fin b)).fold max (Ideal.ofBits .f32 acc) (fun k => src (ix2 r k)) := by
  rw [Ideal.multiReduction_maximumf_single]
  exact congrArg (fun f => (Finset.univ : Finset (Fin b)).fold max (Ideal.ofBits .f32 acc) f)
    (funext fun k => congrArg src (lift_row h r k))

/-- An add-reduction over axis 1, at row `r`: the sum of the row's entries. -/
theorem rowSum_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ) (r : Fin a) :
    multiReduction .add [1] ⟨1, ![a]⟩ src acc h hφ hacc (ix1 r) = ∑ k : Fin b, src (ix2 r k) := by
  rw [Ideal.multiReduction_add_single]
  exact Finset.sum_congr rfl fun k _ => congrArg src (lift_row h r k)

/-- The row softmax, as computed with the reduced axis kept as a unit column, read at entry (r, k). -/
theorem softmaxRow_apply {a b : ℕ} (s : FVec Ideal ⟨2, ![a, b]⟩ .f32) (accM accA : BitVec 32)
    (h : (⟨2, ![a, b]⟩ : Shape).Reduces [1] ⟨1, ![a]⟩) (hφ hφ' : FKind.Formats .f32)
    (haccM : accM = FKind.maximumf.neutral .f32 hφ) (haccA : accA = FKind.add.neutral .f32 hφ')
    (hc : (⟨1, ![a]⟩ : Shape).ShapeCasts ⟨2, ![a, 1]⟩) (hb : (⟨2, ![a, 1]⟩ : Shape).Broadcasts ⟨2, ![a, b]⟩)
    (r : Fin a) (k : Fin b) :
    divf
        (exp (subf s (broadcastTo ⟨2, ![a, b]⟩ (shapeCast ⟨2, ![a, 1]⟩ (multiReduction .maximumf [1] ⟨1, ![a]⟩ s accM h hφ haccM) hc) hb)))
        (broadcastTo ⟨2, ![a, b]⟩ (shapeCast ⟨2, ![a, 1]⟩ (multiReduction .add [1] ⟨1, ![a]⟩
          (exp (subf s (broadcastTo ⟨2, ![a, b]⟩ (shapeCast ⟨2, ![a, 1]⟩ (multiReduction .maximumf [1] ⟨1, ![a]⟩ s accM h hφ haccM) hc) hb)))
          accA h hφ' haccA) hc) hb) (ix2 r k)
      = Ideal.div
          (Ideal.exp (s (ix2 r k) - (Finset.univ : Finset (Fin b)).fold max (Ideal.ofBits .f32 accM) (fun k' => s (ix2 r k'))))
          (∑ k' : Fin b, Ideal.exp (s (ix2 r k') - (Finset.univ : Finset (Fin b)).fold max (Ideal.ofBits .f32 accM) (fun k'' => s (ix2 r k'')))) := by
  have hM : ∀ k' : Fin b,
      broadcastTo ⟨2, ![a, b]⟩ (shapeCast ⟨2, ![a, 1]⟩ (multiReduction .maximumf [1] ⟨1, ![a]⟩ s accM h hφ haccM) hc) hb (ix2 r k')
        = (Finset.univ : Finset (Fin b)).fold max (Ideal.ofBits .f32 accM) (fun k'' => s (ix2 r k'')) := fun k' =>
    (Cert.LibColumn.broadcastTo_a1_ab_apply _ hb r k').trans
      ((Cert.LibColumn.shapeCast_a_a1_apply _ hc r 0).trans (rowMax_apply s accM h hφ haccM r))
  have hE : ∀ k' : Fin b,
      exp (subf s (broadcastTo ⟨2, ![a, b]⟩ (shapeCast ⟨2, ![a, 1]⟩ (multiReduction .maximumf [1] ⟨1, ![a]⟩ s accM h hφ haccM) hc) hb)) (ix2 r k')
        = Ideal.exp (s (ix2 r k') - (Finset.univ : Finset (Fin b)).fold max (Ideal.ofBits .f32 accM) (fun k'' => s (ix2 r k''))) := fun k' =>
    congrArg (fun m => Ideal.exp (s (ix2 r k') - m)) (hM k')
  refine (congrArg₂ Ideal.div (hE k) ?_ : _)
  refine (Cert.LibColumn.broadcastTo_a1_ab_apply _ hb r k).trans ((Cert.LibColumn.shapeCast_a_a1_apply _ hc r 0).trans ?_)
  refine (rowSum_apply _ accA h hφ' haccA r).trans ?_
  exact Finset.sum_congr rfl fun k' _ => hE k'

end Cert.LibSoftmaxRow

end
-- ==== Proof.KernelBody.lean ====
/-
  What the kernel body stores for one block, entry by entry.

  The body is handed a block of 1024 rows of 512 features (as a [1, 1024, 512] array) and the three dense layers' weights
  and biases. It forms Q, K and V (each a [1024, 512] by [512, 512] product plus the bias spread over the rows), the score
  matrix (Q times K over the feature axis, times the scale), subtracts from every row its maximum (folded from -∞),
  exponentiates, sums each row, picks each row's diagonal exponential by summing the row with every other entry masked to
  0, divides the two, and multiplies V's row by that quotient. If the block's row (n, ·) is row (t, n, ·) of an array X
  of 48 blocks, then entry (n, f) of what is stored is the specification's `rowEntry X … t n f`.
-/
import proofs.«118305_j91036126806755_2_alg».proof.Proof.Gen.KernelIdeal.Skeleton
import proofs.«118305_j91036126806755_2_alg».proof.Proof.KernelOps
import proofs.«118305_j91036126806755_2_alg».proof.Proof.Spec
import proofs.«118305_j91036126806755_2_alg».proof.Proof.LibColumn
import proofs.«118305_j91036126806755_2_alg».proof.Proof.LibSoftmaxRow

noncomputable section

namespace Cert.KernelIdeal.Body

open Cert.KernelIdeal Cert.KernelIdeal.Facts₀ Cert.KernelIdeal.Facts Cert.KernelIdeal.BodyOps
open Cert.KernelIdeal.Gen (k0_pay1 k0_pay2 k0_pay3 k0_pay4 k0_pay5 k0_pay6)
open Idealize.ShloMosaic Idealize.ShloMosaic.ValueIdx Cert.DiagAttention
open scoped BigOperators

/-! ## The body's pieces as functions of their operands -/

/-- A dense layer with bias over the block's rows. -/
def denseRows (x0 : FVec Ideal S1x1024x512 .f32) (W : FVec Ideal S512x512 .f32) (β : FVec Ideal S512 .f32) : FVec Ideal S1024x512 .f32 :=
  addf (matmul dot_S1024x512_S512x512_S1024x512_1_0_0_1_n_n none (k0_pay2 (F := Ideal) x0) (truncf .bf16 W bitsLt_bf16_f32) (constant S1024x512 .f32 0x00000000#32))
    (broadcastTo S1024x512 (shapeCast S1x512 β shapeCasts_S512_S1x512) broadcasts_S1x512_S1024x512)

/-- The scaled scores of every query row against every key row. -/
def scoreMatrix (Q K : FVec Ideal S1024x512 .f32) : FVec Ideal S1024x1024 .f32 :=
  mulf (matmul dot_S1024x512_S1024x512_S1024x1024_1_1_0_0_n_n none (truncf .bf16 Q bitsLt_bf16_f32) (truncf .bf16 K bitsLt_bf16_f32) (constant S1024x1024 .f32 0x00000000#32))
    (broadcast S1024x1024 (Scalar.ofBits .f32 0x3D3504F3#32))

/-- Every score less its row's maximum, exponentiated. -/
def expRows (s : FVec Ideal S1024x1024 .f32) : FVec Ideal S1024x1024 .f32 :=
  exp (subf s (broadcastTo S1024x1024 (shapeCast S1024x1 (multiReduction .maximumf [1] S1024 s 0xFF800000#32 reduces_S1024x1024_S1024 (.inl rfl) rfl) shapeCasts_S1024_S1024x1) broadcasts_S1024x1_S1024x1024))

theorem pay3_eq (x0 : FVec Ideal S1x1024x512 .f32) (W : FVec Ideal S512x512 .f32) (β : FVec Ideal S512 .f32) :
    k0_pay3 (F := Ideal) x0 W β = denseRows x0 W β := rfl

theorem pay4_eq (x0 : FVec Ideal S1x1024x512 .f32) (Wq Wk : FVec Ideal S512x512 .f32) (bq bk : FVec Ideal S512 .f32) :
    k0_pay4 (F := Ideal) x0 Wq Wk bq bk = expRows (scoreMatrix (denseRows x0 Wq bq) (denseRows x0 Wk bk)) := rfl

/-! ## Each piece at an entry -/

section
variable (X : Rows.Idx → EReal) (t : Fin 48) (x0 : FVec Ideal S1x1024x512 .f32)
  (hx : ∀ (n : Fin 1024) (k : Fin 512), x0 (ix3 (0 : Fin 1) n k) = X (ix3 t n k))
include hx

/-- The block viewed as a matrix, at (n, k): row (t, n) of X at k. -/
theorem rows_apply (n : Fin 1024) (k : Fin 512) : k0_pay2 (F := Ideal) x0 (ix2 n k) = X (ix3 t n k) := by
  unfold k0_pay2
  exact (shapeCast_1ab_ab_apply x0 shapeCasts_S1x1024x512_S1024x512 n k).trans (hx n k)

/-- A dense layer over the block's rows, at (n, g): the specification's `dense`. -/
theorem denseRows_apply (W : FVec Ideal S512x512 .f32) (β : FVec Ideal S512 .f32) (n : Fin 1024) (g : Fin 512) :
    denseRows x0 W β (ix2 n g) = dense X W β t n g := by
  unfold denseRows dense
  refine congrArg₂ (· + ·) ?_ (bias_rows_apply β n g)
  refine (matmul_rows_cols_apply (k0_pay2 (F := Ideal) x0) (truncf .bf16 W bitsLt_bf16_f32) n g).trans ?_
  exact Finset.sum_congr rfl fun k _ => congrArg₂ (· * ·) (rows_apply X t x0 hx n k) rfl

/-- The score matrix of the block's Q and K, at (n, m): the specification's `score`. -/
theorem scoreMatrix_apply (Wq Wk : FVec Ideal S512x512 .f32) (bq bk : FVec Ideal S512 .f32) (n m : Fin 1024) :
    scoreMatrix (denseRows x0 Wq bq) (denseRows x0 Wk bk) (ix2 n m) = score X Wq bq Wk bk t n m := by
  unfold scoreMatrix score
  refine congrArg₂ (· * ·) ?_ rfl
  refine (matmul_rows_rows_apply (truncf .bf16 (denseRows x0 Wq bq) bitsLt_bf16_f32) (truncf .bf16 (denseRows x0 Wk bk) bitsLt_bf16_f32) n m).trans ?_
  exact Finset.sum_congr rfl fun k _ => congrArg₂ (· * ·) (denseRows_apply X t x0 hx Wq bq n k) (denseRows_apply X t x0 hx Wk bk m k)

end

/-- The exponentials of a score matrix's rows, at (n, m): `exp(s[n,m] - max_m' s[n,m'])`, the maximum folded from -∞. -/
theorem expRows_apply (s : FVec Ideal S1024x1024 .f32) (n m : Fin 1024) :
    expRows s (ix2 n m)
      = Ideal.exp (s (ix2 n m) - (Finset.univ : Finset (Fin 1024)).fold max (Ideal.ofBits .f32 0xFF800000#32) (fun m' => s (ix2 n m'))) := by
  unfold expRows
  refine congrArg (fun M => Ideal.exp (s (ix2 n m) - M)) ?_
  exact (Cert.LibColumn.broadcastTo_a1_ab_apply _ broadcasts_S1024x1_S1024x1024 n m).trans
    ((Cert.LibColumn.shapeCast_a_a1_apply _ shapeCasts_S1024_S1024x1 n 0).trans
      (Cert.LibSoftmaxRow.rowMax_apply s 0xFF800000#32 reduces_S1024x1024_S1024 (.inl rfl) rfl n))

/-- The stored block at (n, f), from its pieces: the masked row sum over the row sum, times V's entry. -/
theorem pay1_apply (V : FVec Ideal S1024x512 .f32) (P : FVec Ideal S1024x1024 .f32) (Z : FVec Ideal S1024x1 .f32) (mask : IVec S1024x1024 1)
    (z : Ideal .f32) (n : Fin 1024) (f : Fin 512) :
    k0_pay1 (F := Ideal) V P Z mask z (ix3 (0 : Fin 1) n f)
      = Ideal.div (∑ m : Fin 1024, Scalar.select (mask (ix2 n m)) (P (ix2 n m)) z) (Z (ix2 n (0 : Fin 1))) * V (ix2 n f) := by
  unfold k0_pay1
  refine (shapeCast_ab_1ab_apply _ shapeCasts_S1024x512_S1x1024x512 0 n f).trans ?_
  refine congrArg₂ (· * ·) ?_ rfl
  refine (Cert.LibColumn.broadcastTo_a1_ab_apply _ broadcasts_S1024x1_S1024x512 n f).trans ?_
  refine congrArg₂ Ideal.div ?_ rfl
  refine (Cert.LibColumn.shapeCast_a_a1_apply _ shapeCasts_S1024_S1024x1 n 0).trans ?_
  exact Cert.LibSoftmaxRow.rowSum_apply _ 0x00000000#32 reduces_S1024x1024_S1024 (.inl rfl) rfl n

/-! ## The stored block is the specification's entry -/

/-- Entry (n, f) of what the body stores for a block whose rows are block `t` of `X`. -/
theorem block_entry (X : Rows.Idx → EReal) (t : Fin 48) (x0 : FVec Ideal S1x1024x512 .f32)
    (hx : ∀ (n : Fin 1024) (k : Fin 512), x0 (ix3 (0 : Fin 1) n k) = X (ix3 t n k))
    (Wq : FVec Ideal S512x512 .f32) (bq : FVec Ideal S512 .f32) (Wk : FVec Ideal S512x512 .f32) (bk : FVec Ideal S512 .f32)
    (Wv : FVec Ideal S512x512 .f32) (bv : FVec Ideal S512 .f32) (n : Fin 1024) (f : Fin 512) :
    k0_pay1 (F := Ideal) (k0_pay3 x0 Wv bv) (k0_pay4 x0 Wq Wk bq bk) (k0_pay5 x0 Wq Wk bq bk) k0_pay6 (Scalar.ofBits .f32 0x00000000#32)
        (ix3 (0 : Fin 1) n f)
      = rowEntry X Wq bq Wk bk Wv bv t n f := by
  have hP : ∀ m : Fin 1024, k0_pay4 (F := Ideal) x0 Wq Wk bq bk (ix2 n m) = expTerm X Wq bq Wk bk t n m := fun m => by
    rw [pay4_eq]
    refine (expRows_apply _ n m).trans ?_
    unfold expTerm rowMax
    refine congrArg₂ (fun a M => Ideal.exp (a - M)) (scoreMatrix_apply X t x0 hx Wq Wk bq bk n m) ?_
    exact congrArg (fun g => (Finset.univ : Finset (Fin 1024)).fold max (Ideal.ofBits .f32 0xFF800000#32) g)
      (funext fun m' => scoreMatrix_apply X t x0 hx Wq Wk bq bk n m')
  refine (pay1_apply _ _ _ _ _ n f).trans ?_
  unfold rowEntry diagProb
  refine congrArg₂ (· * ·) (congrArg₂ Ideal.div ?_ ?_) ?_
  · refine (Finset.sum_congr rfl fun m _ => ?_).trans (sum_select_diag (fun m => expTerm X Wq bq Wk bk t n m) n)
    show Scalar.select (k0_pay6 (ix2 n m)) (k0_pay4 (F := Ideal) x0 Wq Wk bq bk (ix2 n m)) (Ideal.ofBits .f32 0x00000000#32) = _
    rw [hP m, Ideal.ofBits_zero_f32]
    exact congrArg (fun c => Scalar.select c (expTerm X Wq bq Wk bk t n m) (0 : EReal)) (diag_mask_apply n m)
  · refine ((Cert.LibColumn.shapeCast_a_a1_apply _ shapeCasts_S1024_S1024x1 n 0).trans
      (Cert.LibSoftmaxRow.rowSum_apply _ 0x00000000#32 reduces_S1024x1024_S1024 (.inl rfl) rfl n)).trans ?_
    exact Finset.sum_congr rfl fun m _ => hP m
  · rw [pay3_eq]
    exact denseRows_apply X t x0 hx Wv bv n f

end Cert.KernelIdeal.Body

end
-- ==== Proof.KernelValue.lean ====
/-
  The kernel's result array, read off its run.

  The 48 grid points each take one block [1, 1024, 512] of the input re-laid as 48 blocks, and the whole of each weight
  and bias; point t writes back block t of the result over the 48 blocks. What the body leaves for point t is, entry by
  entry, the specification's `rowEntry` at block t (the body module), which is block t of ONE array, `rowsOut`; the 48
  blocks tile the array, so it ends holding `rowsOut` of the re-laid input. The program's last line re-lays that array
  to four axes, and its first line re-laid the input: together, the specification's `result`.
-/
import proofs.«118305_j91036126806755_2_alg».proof.Proof.Gen.KernelIdeal.Frame
import proofs.«118305_j91036126806755_2_alg».proof.Proof.KernelBody
import proofs.«118305_j91036126806755_2_alg».proof.Proof.Spec
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.ArrayValue

open Cert.KernelIdeal Cert.KernelIdeal.Gen Idealize.ShloMosaic.ValueIdx Cert.DiagAttention

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the input's and the result's block at point `t` is block `t` along the first
    axis, and every weight and bias window stays at its one block. -/
theorem idx_facts : ∀ t : Fin cfg0.N,
    win0_0.index t (0 : Fin 3) = t.val ∧ win0_0.index t (1 : Fin 3) = 0 ∧ win0_0.index t (2 : Fin 3) = 0
    ∧ win0_7.index t (0 : Fin 3) = t.val ∧ win0_7.index t (1 : Fin 3) = 0 ∧ win0_7.index t (2 : Fin 3) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0 :=
  (by decide +kernel : ∀ t : Fin grid0.N, _)

theorem point_lt (t : Fin cfg0.N) : t.val < 48 := by have h : cfg0.N = 48 := N_0; have := t.isLt; omega

/-- The block number of grid point `t`. -/
def blockAt (t : Fin cfg0.N) : Fin 48 := ⟨t.val, point_lt t⟩

/-! ## The arrays as the region finds them -/

/-- The program's first line: the region finds the input re-laid as 48 blocks. -/
theorem entry_rows (c : Dev nD) :
    (V m c main_v0 : S48x1024x512.Idx → EReal)
      = shapeCast S48x1024x512 (m ((c : Thread nD τ).loc main_arg0)) Gen.shapeCasts_S4x12x1024x512_S48x1024x512 := by
  show StableHlo.after hostOps0 (fun b => m (c, b)) (Proc.devRef .tc main_v0) = _
  after_results
  rfl

/-! ## The windows' blocks -/

/-- The input window's block at point `t`, at (0, n, k): block `t` of the re-laid input at (n, k). -/
theorem iblk0_apply (c : Dev nD) (t : Fin cfg0.N) (n : Fin 1024) (k : Fin 512) :
    (iblk m c 0 t : FVec Ideal S1x1024x512 .f32) (ix3 (0 : Fin 1) n k) = (V m c main_v0 : S48x1024x512.Idx → EReal) (ix3 (blockAt t) n k) := by
  obtain ⟨e0, e1, e2, -⟩ := idx_facts t
  unfold iblk
  rw [View.read_apply]
  show V m c main_v0 _ = V m c main_v0 _
  refine congrArg (V m c main_v0) (funext fun a => Fin.ext ?_)
  match a with
  | ⟨0, _⟩ => show win0_0.index t (0 : Fin 3) * 1 + 1 * 0 = t.val; omega
  | ⟨1, _⟩ => show win0_0.index t (1 : Fin 3) * 1024 + 1 * n.val = n.val; omega
  | ⟨2, _⟩ => show win0_0.index t (2 : Fin 3) * 512 + 1 * k.val = k.val; omega

/-- A weight window's block at any point is the whole weight as launched. -/
theorem iblk1_eq (c : Dev nD) (t : Fin cfg0.N) : (iblk m c 1 t : FVec Ideal S512x512 .f32) = m ((c : Thread nD τ).loc main_arg1) := by
  obtain ⟨-, -, -, -, -, -, e0, e1, -⟩ := idx_facts t
  rw [← V_main_arg1 m c]
  funext y
  unfold iblk
  rw [View.read_apply]
  show V m c main_arg1 _ = V m c main_arg1 y
  refine congrArg (V m c main_arg1) (funext fun a => Fin.ext ?_)
  match a with
  | ⟨0, _⟩ => show win0_1.index t (0 : Fin 2) * 512 + 1 * (y 0).val = (y 0).val; omega
  | ⟨1, _⟩ => show win0_1.index t (1 : Fin 2) * 512 + 1 * (y 1).val = (y 1).val; omega

theorem iblk2_eq (c : Dev nD) (t : Fin cfg0.N) : (iblk m c 2 t : FVec Ideal S512 .f32) = m ((c : Thread nD τ).loc main_arg2) := by
  obtain ⟨-, -, -, -, -, -, -, -, e0, -⟩ := idx_facts t
  rw [← V_main_arg2 m c]
  funext y
  unfold iblk
  rw [View.read_apply]
  show V m c main_arg2 _ = V m c main_arg2 y
  refine congrArg (V m c main_arg2) (funext fun a => Fin.ext ?_)
  match a with
  | ⟨0, _⟩ => show win0_2.index t (0 : Fin 1) * 512 + 1 * (y 0).val = (y 0).val; omega

theorem iblk3_eq (c : Dev nD) (t : Fin cfg0.N) : (iblk m c 3 t : FVec Ideal S512x512 .f32) = m ((c : Thread nD τ).loc main_arg3) := by
  obtain ⟨-, -, -, -, -, -, -, -, -, e0, e1, -⟩ := idx_facts t
  rw [← V_main_arg3 m c]
  funext y
  unfold iblk
  rw [View.read_apply]
  show V m c main_arg3 _ = V m c main_arg3 y
  refine congrArg (V m c main_arg3) (funext fun a => Fin.ext ?_)
  match a with
  | ⟨0, _⟩ => show win0_3.index t (0 : Fin 2) * 512 + 1 * (y 0).val = (y 0).val; omega
  | ⟨1, _⟩ => show win0_3.index t (1 : Fin 2) * 512 + 1 * (y 1).val = (y 1).val; omega

theorem iblk4_eq (c : Dev nD) (t : Fin cfg0.N) : (iblk m c 4 t : FVec Ideal S512 .f32) = m ((c : Thread nD τ).loc main_arg4) := by
  obtain ⟨-, -, -, -, -, -, -, -, -, -, -, e0, -⟩ := idx_facts t
  rw [← V_main_arg4 m c]
  funext y
  unfold iblk
  rw [View.read_apply]
  show V m c main_arg4 _ = V m c main_arg4 y
  refine congrArg (V m c main_arg4) (funext fun a => Fin.ext ?_)
  match a with
  | ⟨0, _⟩ => show win0_4.index t (0 : Fin 1) * 512 + 1 * (y 0).val = (y 0).val; omega

theorem iblk5_eq (c : Dev nD) (t : Fin cfg0.N) : (iblk m c 5 t : FVec Ideal S512x512 .f32) = m ((c : Thread nD τ).loc main_arg5) := by
  obtain ⟨-, -, -, -, -, -, -, -, -, -, -, -, e0, e1, -⟩ := idx_facts t
  rw [← V_main_arg5 m c]
  funext y
  unfold iblk
  rw [View.read_apply]
  show V m c main_arg5 _ = V m c main_arg5 y
  refine congrArg (V m c main_arg5) (funext fun a => Fin.ext ?_)
  match a with
  | ⟨0, _⟩ => show win0_5.index t (0 : Fin 2) * 512 + 1 * (y 0).val = (y 0).val; omega
  | ⟨1, _⟩ => show win0_5.index t (1 : Fin 2) * 512 + 1 * (y 1).val = (y 1).val; omega

theorem iblk6_eq (c : Dev nD) (t : Fin cfg0.N) : (iblk m c 6 t : FVec Ideal S512 .f32) = m ((c : Thread nD τ).loc main_arg6) := by
  obtain ⟨-, -, -, -, -, -, -, -, -, -, -, -, -, -, e0⟩ := idx_facts t
  rw [← V_main_arg6 m c]
  funext y
  unfold iblk
  rw [View.read_apply]
  show V m c main_arg6 _ = V m c main_arg6 y
  refine congrArg (V m c main_arg6) (funext fun a => Fin.ext ?_)
  match a with
  | ⟨0, _⟩ => show win0_6.index t (0 : Fin 1) * 512 + 1 * (y 0).val = (y 0).val; omega

/-! ## What point `t` writes back -/

/-- The result over the 48 blocks, of the arrays as the region finds them. -/
abbrev rowsResult (c : Dev nD) : S48x1024x512.Idx → EReal :=
  rowsOut (V m c main_v0) (m ((c : Thread nD τ).loc main_arg1)) (m ((c : Thread nD τ).loc main_arg2))
    (m ((c : Thread nD τ).loc main_arg3)) (m ((c : Thread nD τ).loc main_arg4))
    (m ((c : Thread nD τ).loc main_arg5)) (m ((c : Thread nD τ).loc main_arg6))

/-- Point `t` writes back block `t` of `rowsResult`. -/
theorem flushed_eq (c : Dev nD) (t : Fin cfg0.N) :
    (dats m 0 c).flushed 7 t = ((cfg0.win 7).blk t).view.read (Elt Ideal) (rowsResult m c) := by
  obtain ⟨-, -, -, e0, e1, e2, -⟩ := idx_facts t
  show (cfg0.win 7).cut (grid0.coords t) ((dats m 0 c).after 7 t) = _
  rw [after0_7]
  unfold out0_7
  rw [View.canon_unit_zero hz3]
  simp only [View.ld_unit_zero (S := S1x1024x512) hz3, View.ld_unit_zero (S := S512x512) hz2, View.ld_unit_zero (S := S512) hz1]
  rw [iblk1_eq, iblk2_eq, iblk3_eq, iblk4_eq, iblk5_eq, iblk6_eq]
  funext y
  obtain ⟨u, n, f, rfl⟩ : ∃ (u : Fin 1) (n : Fin 1024) (f : Fin 512), y = ix3 u n f := ⟨y 0, y 1, y 2, eq_ix3 y⟩
  obtain rfl : u = 0 := Subsingleton.elim _ _
  rw [View.read_apply]
  have hemb : ((cfg0.win 7).blk t).view.emb (ix3 (0 : Fin 1) n f) = ix3 (blockAt t) n f := funext fun a => Fin.ext (by
    match a with
    | ⟨0, _⟩ => show win0_7.index t (0 : Fin 3) * 1 + 1 * 0 = t.val; omega
    | ⟨1, _⟩ => show win0_7.index t (1 : Fin 3) * 1024 + 1 * n.val = n.val; omega
    | ⟨2, _⟩ => show win0_7.index t (2 : Fin 3) * 512 + 1 * f.val = f.val; omega)
  rw [hemb]
  exact Cert.KernelIdeal.Body.block_entry (V m c main_v0) (blockAt t) (iblk m c 0 t) (iblk0_apply m c t) _ _ _ _ _ _ n f

/-! ## The result array after the region -/

/-- An index of the array is in point `t`'s block iff each coordinate is in the block's range on its axis. -/
theorem mem_blk (t : Fin cfg0.N) (i : S48x1024x512.Idx) :
    i ∈ ((cfg0.win 7).blk t).view.set ↔ ∀ a : Fin 3, win0_7.index t a * S1x1024x512.size a ≤ (i a).val ∧ (i a).val < win0_7.index t a * S1x1024x512.size a + S1x1024x512.size a := by
  show i ∈ ((View.whole main_v1).slice (win0_7.rect t)).set ↔ _
  rw [View.set_slice_whole, Rect.mem_set_unit]
  exact Iff.rfl

/-- The 48 blocks tile the array: index (t, n, f) is in point `t`'s block. -/
theorem cover (i : S48x1024x512.Idx) : ∃ t : Fin cfg0.N, (cfg0.win 7).flush t = true ∧ i ∈ ((cfg0.win 7).blk t).view.set := by
  have hN : cfg0.N = 48 := N_0
  have h0 : (i 0).val < 48 := (i 0).isLt
  have h1 : (i 1).val < 1024 := (i 1).isLt
  have h2 : (i 2).val < 512 := (i 2).isLt
  obtain ⟨t, ht⟩ : ∃ t : Fin cfg0.N, t.val = (i 0).val := ⟨⟨(i 0).val, by omega⟩, rfl⟩
  refine ⟨t, flush0_7 t, ?_⟩
  rw [mem_blk]
  obtain ⟨-, -, -, e0, e1, e2, -⟩ := idx_facts t
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 1024 ≤ (i 1).val ∧ (i 1).val < win0_7.index t (1 : Fin 3) * 1024 + 1024; omega
  | ⟨2, _⟩ => show win0_7.index t (2 : Fin 3) * 512 ≤ (i 2).val ∧ (i 2).val < win0_7.index t (2 : Fin 3) * 512 + 512; omega

/-- So the region leaves the result array at `rowsResult`. -/
theorem final_rows (c : Dev nD) : (dats m 0 c).arrAt 7 cfg0.N = rowsResult m c :=
  (dats m 0 c).arrAt_eq_of_cover 7 (rowsResult m c) (fun t _ => flushed_eq m c t) (cover)

/-! ## The program's last line, and the run -/

/-- After the last line the four-axis result buffer holds the specification's `result` of the arguments. -/
theorem tail_result (c : Dev nD) :
    Pipeline.afterTail₀ cfgs (dats m) 0 (V0 m) [hostOps1] c main_v2
      = result (m ((c : Thread nD τ).loc main_arg0)) (m ((c : Thread nD τ).loc main_arg1)) (m ((c : Thread nD τ).loc main_arg2))
          (m ((c : Thread nD τ).loc main_arg3)) (m ((c : Thread nD τ).loc main_arg4))
          (m ((c : Thread nD τ).loc main_arg5)) (m ((c : Thread nD τ).loc main_arg6)) := by
  unfold Pipeline.afterTail₀
  show StableHlo.after hostOps1 _ (Proc.devRef .tc main_v2) = _
  after_results
  unfold result
  refine congrArg (fun A : S48x1024x512.Idx → EReal => shapeCast S4x12x1024x512 A Gen.shapeCasts_S48x1024x512_S4x12x1024x512) ?_
  refine ((Pipeline.withArrays_arr spec0 launch0.win.arr_inj c _ _ 7).trans (final_rows m c)).trans ?_
  unfold rowsResult
  rw [entry_rows]

/-- THE RUN, READ: every weakly fair execution of the idealized kernel terminates with the result buffer at the
    specification's `result` of the arguments, the arguments unchanged. -/
theorem run : θ_run defs (onTc (τ := τ) (main (F := Ideal))) ⟨m, fun _ => 0, ρ⟩ fun r => ∀ c : Dev nD,
      r.2.mem ((c.tc : Thread nD τ).loc main_v2)
        = result (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
            (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨((h c).2 main_v2 (Pipeline.mem_restRefs_of main_v2 (by decide) (by decide))).trans (tail_result m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c)))⟩)
    (run_main m ρ)

end Cert.KernelIdeal.ArrayValue

end
-- ==== Proof.RefGather.lean ====
/-
  Three facts about the reference's diagonal read, none of which looks at a value.

  (1) Over entry (b, u, n) of a [4, 12, 1024] array obtained by reducing axis 3 of a [4, 12, 1024, 1024] array, inserting
      coordinate k on the reduced axis gives the source index (b, u, n, k).
  (2) The gather with offset axes 0, 1, collapsed axes 2, 3, start index map [2, 3], index vector axis 1 and slice sizes
      [4, 12, 1, 1], of an operand [4, 12, 1024, 1024] at start indices [1024, 2], reads at result index (b, u, n) the
      operand at (b, u, r, c): the first two coordinates are the result's own (offset axes), and r, c are the two
      components of start index n, each read as a signed integer and clamped into [0, 1023].
  (3) For n < 1024 the 32-bit word of n is not below zero as a signed integer, and read back signed it is n.
-/
import proofs.«118305_j91036126806755_2_alg».proof.ReferenceIdeal
import Idealize.ShloMosaic.Lib.ValueIdx
import Idealize.ShloMosaic.PureOps.Reduce

noncomputable section

namespace Cert.RefGather

open Cert.ReferenceIdeal Idealize.ShloMosaic Idealize.ShloMosaic.ValueIdx

set_option backward.isDefEq.respectTransparency.types false in
/-- Inserting coordinate `k` on the reduced axis 3 over result index (b, u, n) gives the source index (b, u, n, k). -/
theorem lift_d3 (h : (⟨4, ![4, 12, 1024, 1024]⟩ : Shape).Reduces [3] ⟨3, ![4, 12, 1024]⟩)
    (b : Fin 4) (u : Fin 12) (n : Fin 1024) (k : Fin 1024) :
    h.lift (ix3 b u n) k = ix4 b u n k := by
  funext c
  apply Fin.ext
  rw [h.lift_val]
  match c with
  | ⟨0, _⟩ => rfl
  | ⟨1, _⟩ => rfl
  | ⟨2, _⟩ => rfl
  | ⟨3, _⟩ => rfl

section Gather
variable [Facts₀] {α : Type} {w : Nat}

/-- The start-indices index at which result index (b, u, n) reads component `c` of its start index: (n, c). -/
theorem siIdx_apply (b : Fin 4) (u : Fin 12) (n : Fin 1024) (c : Fin 2) :
    gather_S4x12x1024x1024_S1024x2_S4x12x1024_01_23_n_n_23_1_41211.siIdx (ix3 b u n) c = ix2 n c := by
  funext a
  refine Fin.ext ?_
  match a with
  | ⟨0, _⟩ => rfl
  | ⟨1, _⟩ => rfl

/-- The start index map is axes 2, 3. -/
theorem startIndexMap_eq :
    gather_S4x12x1024x1024_S1024x2_S4x12x1024_01_23_n_n_23_1_41211.startIndexMap = ([2, 3] : List (Fin 4)) := rfl

/-- The operand axes that are neither collapsed nor batching are 0, 1. -/
theorem sKept_eq :
    gather_S4x12x1024x1024_S1024x2_S4x12x1024_01_23_n_n_23_1_41211.sKept = ([0, 1] : List (Fin 4)) := rfl

/-- No operand axis is a batching axis. -/
theorem batchCoord_zero (j : S4x12x1024.Idx) (a : Fin 4) :
    gather_S4x12x1024x1024_S1024x2_S4x12x1024_01_23_n_n_23_1_41211.batchCoord j a = 0 :=
  GatherDims.batchCoord_eq_zero _ _ _ List.not_mem_nil

/-- Operand axis 0 is an offset axis: no start, the result's coordinate 0. -/
theorem operand_axis0 (idx : IVec S1024x2 w) (j : S4x12x1024.Idx) :
    gather_S4x12x1024x1024_S1024x2_S4x12x1024_01_23_n_n_23_1_41211.start j idx 0
      + gather_S4x12x1024x1024_S1024x2_S4x12x1024_01_23_n_n_23_1_41211.offCoord j 0 = (j 0).val := by
  unfold GatherDims.start GatherDims.offCoord
  rw [dif_neg (by rw [startIndexMap_eq]; decide), dif_pos (by rw [sKept_eq]; decide)]
  exact Nat.zero_add _

/-- Operand axis 1 is an offset axis: no start, the result's coordinate 1. -/
theorem operand_axis1 (idx : IVec S1024x2 w) (j : S4x12x1024.Idx) :
    gather_S4x12x1024x1024_S1024x2_S4x12x1024_01_23_n_n_23_1_41211.start j idx 1
      + gather_S4x12x1024x1024_S1024x2_S4x12x1024_01_23_n_n_23_1_41211.offCoord j 1 = (j 1).val := by
  unfold GatherDims.start GatherDims.offCoord
  rw [dif_neg (by rw [startIndexMap_eq]; decide), dif_pos (by rw [sKept_eq]; decide)]
  exact Nat.zero_add _

/-- Operand axis 2 is collapsed: no offset, the start index's component 0, clamped. -/
theorem operand_axis2 (idx : IVec S1024x2 w) (b : Fin 4) (u : Fin 12) (n : Fin 1024) :
    gather_S4x12x1024x1024_S1024x2_S4x12x1024_01_23_n_n_23_1_41211.start (ix3 b u n) idx 2
      + gather_S4x12x1024x1024_S1024x2_S4x12x1024_01_23_n_n_23_1_41211.offCoord (ix3 b u n) 2
      = min (idx (ix2 n (0 : Fin 2))).toInt.toNat (1024 - 1) := by
  rw [GatherDims.offCoord_eq_zero _ _ _ (by rw [sKept_eq]; decide), Nat.add_zero]
  unfold GatherDims.start
  rw [dif_pos (by rw [startIndexMap_eq]; decide)]
  exact congrArg (fun j => min (idx j).toInt.toNat (1024 - 1)) (siIdx_apply b u n 0)

/-- Operand axis 3 is collapsed: no offset, the start index's component 1, clamped. -/
theorem operand_axis3 (idx : IVec S1024x2 w) (b : Fin 4) (u : Fin 12) (n : Fin 1024) :
    gather_S4x12x1024x1024_S1024x2_S4x12x1024_01_23_n_n_23_1_41211.start (ix3 b u n) idx 3
      + gather_S4x12x1024x1024_S1024x2_S4x12x1024_01_23_n_n_23_1_41211.offCoord (ix3 b u n) 3
      = min (idx (ix2 n (1 : Fin 2))).toInt.toNat (1024 - 1) := by
  rw [GatherDims.offCoord_eq_zero _ _ _ (by rw [sKept_eq]; decide), Nat.add_zero]
  unfold GatherDims.start
  rw [dif_pos (by rw [startIndexMap_eq]; decide)]
  exact congrArg (fun j => min (idx j).toInt.toNat (1024 - 1)) (siIdx_apply b u n 1)

/-- THE GATHER READ AT (b, u, n): the operand at (b, u, r, c), with r and c the two components of start index `n`,
    read signed and clamped into [0, 1023]. -/
theorem gather_apply (x : S4x12x1024x1024.Idx → α) (idx : IVec S1024x2 w) (b : Fin 4) (u : Fin 12) (n : Fin 1024) :
    Host.gather gather_S4x12x1024x1024_S1024x2_S4x12x1024_01_23_n_n_23_1_41211 x idx (ix3 b u n)
      = x (ix4 b u (⟨min (idx (ix2 n (0 : Fin 2))).toInt.toNat (1024 - 1), by omega⟩ : Fin 1024)
            (⟨min (idx (ix2 n (1 : Fin 2))).toInt.toNat (1024 - 1), by omega⟩ : Fin 1024)) := by
  unfold Host.gather
  congr 1
  funext a
  refine Fin.ext ?_
  show gather_S4x12x1024x1024_S1024x2_S4x12x1024_01_23_n_n_23_1_41211.start (ix3 b u n) idx a
      + gather_S4x12x1024x1024_S1024x2_S4x12x1024_01_23_n_n_23_1_41211.batchCoord (ix3 b u n) a
      + gather_S4x12x1024x1024_S1024x2_S4x12x1024_01_23_n_n_23_1_41211.offCoord (ix3 b u n) a = _
  rw [batchCoord_zero, Nat.add_zero]
  match a with
  | ⟨0, _⟩ => exact operand_axis0 idx (ix3 b u n)
  | ⟨1, _⟩ => exact operand_axis1 idx (ix3 b u n)
  | ⟨2, _⟩ => exact operand_axis2 idx b u n
  | ⟨3, _⟩ => exact operand_axis3 idx b u n

end Gather

/-- For n < 1024 the word of n, compared signed with zero, is not below it. -/
theorem slt_zero_of_lt (n : Nat) (hn : n < 1024) : IntOp.cmpi .slt (BitVec.ofNat 32 n) 0#32 = 0#1 := by
  have h : (BitVec.ofNat 32 n).slt 0#32 = false := by
    rw [BitVec.slt_eq_decide, decide_eq_false_iff_not, BitVec.toInt_ofNat', BitVec.toInt_zero]
    have : ((n : Int)).bmod (2 ^ 32) = n := by
      apply Int.bmod_eq_of_le <;> omega
    rw [this]
    omega
  show BitVec.ofBool ((BitVec.ofNat 32 n).slt 0#32) = 0#1
  rw [h]
  rfl

/-- For n < 1024 the word of n read back as a signed integer is n; clamped into [0, 1023] it is still n. -/
theorem clamp_ofNat (n : Nat) (hn : n < 1024) : min (BitVec.ofNat 32 n).toInt.toNat (1024 - 1) = n := by
  have : (BitVec.ofNat 32 n).toInt = (n : Int) := by
    rw [BitVec.toInt_ofNat']
    apply Int.bmod_eq_of_le <;> omega
  rw [this, Int.toNat_natCast]
  omega

end Cert.RefGather

end
-- ==== Proof.RefStages.lean ====
/-
  The three stages of the reference that read more than one fixed entry of their operands, each read at an index.

  Row maximum. The maximum-reduction over axis 3 of the scores [4, 12, 1024, 1024] at (b, u, n) is the fold of max, from the
  initial value -∞, over the 1024 scores of row (b, u, n): max commutes and associates, and inserting coordinate m on the
  reduced axis over (b, u, n) gives (b, u, n, m).

  Start indices. The diagonal's start indices are a [1024, 2] array joined from two [1024, 1] columns, each the column of
  t(n) = (n < 0 ? n + 1024 : n) over the counter n = 0 … 1023. The counter's word is never below zero as a signed integer
  (n < 1024 < 2^31), so t(n) is the word of n, and both components of start index n are the word of n.

  Diagonal. The gather reads at (b, u, n) the operand at (b, u, r, c) with r, c the two components of start index n read
  signed and clamped into [0, 1023]; both are n, so it reads the operand at (b, u, n, n).
-/
import proofs.«118305_j91036126806755_2_alg».proof.Proof.RefRead
import proofs.«118305_j91036126806755_2_alg».proof.Proof.RefGather

noncomputable section

namespace Cert.RefStages

open Cert.ReferenceIdeal Cert.ReferenceIdeal.Gen Cert.ReferenceIdeal.Read Idealize.ShloMosaic Idealize.ShloMosaic.ValueIdx

/-- Axis 3 of [4, 12, 1024, 1024] removed leaves [4, 12, 1024]. -/
theorem reduces_d3 : S4x12x1024x1024.Reduces [3] S4x12x1024 := by decide

/-- THE ROW MAXIMUM at (b, u, n): the fold of max from -∞ over the row's 1024 scaled scores. -/
theorem rowmax_apply (x : (⟨S4x12x1024x512, .f32⟩ : BufTy).Contents (Elt Ideal)) (Wq : (⟨S512x512, .f32⟩ : BufTy).Contents (Elt Ideal))
    (bq : (⟨S512, .f32⟩ : BufTy).Contents (Elt Ideal)) (Wk : (⟨S512x512, .f32⟩ : BufTy).Contents (Elt Ideal))
    (bk : (⟨S512, .f32⟩ : BufTy).Contents (Elt Ideal)) (b : Fin 4) (u : Fin 12) (n : Fin 1024) :
    val_main_v15 (F := Ideal) x Wq bq Wk bk (ix3 b u n)
      = (Finset.univ : Finset (Fin 1024)).fold max (Ideal.ofBits .f32 0xFF800000#32)
          (fun m => val_main_v14 (F := Ideal) x Wq bq Wk bk (ix4 b u n m)) := by
  unfold val_main_v15
  generalize val_main_v14 (F := Ideal) x Wq bq Wk bk = y
  refine (Host.reduce_eq_fold_single _ y _ reducesTo_S4x12x1024x1024_S4x12x1024_d3 reduces_d3 h_S_ (ix3 b u n)).trans ?_
  exact congrArg (fun f => (Finset.univ : Finset (Fin 1024)).fold max (Ideal.ofBits .f32 0xFF800000#32) f)
    (funext fun k => congrArg y (Cert.RefGather.lift_d3 reduces_d3 b u n k))

/-- The first column's entry n: the counter is not below zero, so the select keeps the counter's word. -/
theorem start_first (n : Fin 1024) : val_main_call0_v6 (F := Ideal) (ix1 n) = BitVec.ofNat 32 n.val := by
  rw [val_main_call0_v6_apply, val_main_call0_v3_apply, val_main_call0_v2_apply, val_main_call0_c_apply]
  show Scalar.select (IntOp.cmpi .slt (BitVec.ofNat 32 n.val) 0#32) _ (BitVec.ofNat 32 n.val) = _
  rw [Cert.RefGather.slt_zero_of_lt n.val n.isLt, select_zero]

/-- The second column's entry n, likewise. -/
theorem start_second (n : Fin 1024) : val_main_call0_v11 (F := Ideal) (ix1 n) = BitVec.ofNat 32 n.val := by
  rw [val_main_call0_v11_apply, val_main_call0_v8_apply, val_main_call0_v7_apply, val_main_call0_c_1_apply]
  show Scalar.select (IntOp.cmpi .slt (BitVec.ofNat 32 n.val) 0#32) _ (BitVec.ofNat 32 n.val) = _
  rw [Cert.RefGather.slt_zero_of_lt n.val n.isLt, select_zero]

/-- Component 0 of start index n falls in the first joined column. -/
theorem starts_col0 (n : Fin 1024) : val_main_call0_v14 (F := Ideal) (ix2 n (0 : Fin 2)) = BitVec.ofNat 32 n.val := by
  unfold val_main_call0_v14
  refine (concatenate_pair_apply_left (1 : Fin S1024x2.rank) _ _ concatenates_S1024x1_S1024x1_S1024x2_d1
    (ix2 n (0 : Fin 2)) rfl (ix2 n (0 : Fin 1)) (fun a => match a with | ⟨0, _⟩ => rfl | ⟨1, _⟩ => rfl)).trans ?_
  rw [val_main_call0_v12_apply]
  have e : idx_main_call0_v12 (ix2 n (0 : Fin 1)) = ix1 n := funext fun a => match a with | ⟨0, _⟩ => rfl
  rw [e]
  exact start_first n

/-- Component 1 of start index n falls in the second joined column, at its position 1 - 1 = 0. -/
theorem starts_col1 (n : Fin 1024) : val_main_call0_v14 (F := Ideal) (ix2 n (1 : Fin 2)) = BitVec.ofNat 32 n.val := by
  unfold val_main_call0_v14
  refine (concatenate_pair_apply_right (1 : Fin S1024x2.rank) _ _ concatenates_S1024x1_S1024x1_S1024x2_d1
    (ix2 n (1 : Fin 2)) rfl rfl (ix2 n (0 : Fin 1))
    (fun a => match a with | ⟨0, _⟩ => fun _ => rfl | ⟨1, _⟩ => fun h => absurd rfl h) rfl).trans ?_
  rw [val_main_call0_v13_apply]
  have e : idx_main_call0_v13 (ix2 n (0 : Fin 1)) = ix1 n := funext fun a => match a with | ⟨0, _⟩ => rfl
  rw [e]
  exact start_second n

/-- THE DIAGONAL at (b, u, n): the softmax's entry (b, u, n, n). -/
theorem diag_apply (x : (⟨S4x12x1024x512, .f32⟩ : BufTy).Contents (Elt Ideal)) (Wq : (⟨S512x512, .f32⟩ : BufTy).Contents (Elt Ideal))
    (bq : (⟨S512, .f32⟩ : BufTy).Contents (Elt Ideal)) (Wk : (⟨S512x512, .f32⟩ : BufTy).Contents (Elt Ideal))
    (bk : (⟨S512, .f32⟩ : BufTy).Contents (Elt Ideal)) (b : Fin 4) (u : Fin 12) (n : Fin 1024) :
    val_main_v26 (F := Ideal) x Wq bq Wk bk (ix3 b u n) = val_main_v25 (F := Ideal) x Wq bq Wk bk (ix4 b u n n) := by
  unfold val_main_v26
  generalize val_main_v25 (F := Ideal) x Wq bq Wk bk = y
  refine (Cert.RefGather.gather_apply y _ b u n).trans ?_
  have h0 : (⟨min (val_main_call0_v14 (F := Ideal) (ix2 n (0 : Fin 2))).toInt.toNat (1024 - 1), by omega⟩ : Fin 1024) = n :=
    Fin.ext (by show min (val_main_call0_v14 (F := Ideal) (ix2 n (0 : Fin 2))).toInt.toNat (1024 - 1) = n.val
                rw [starts_col0]; exact Cert.RefGather.clamp_ofNat n.val n.isLt)
  have h1 : (⟨min (val_main_call0_v14 (F := Ideal) (ix2 n (1 : Fin 2))).toInt.toNat (1024 - 1), by omega⟩ : Fin 1024) = n :=
    Fin.ext (by show min (val_main_call0_v14 (F := Ideal) (ix2 n (1 : Fin 2))).toInt.toNat (1024 - 1) = n.val
                rw [starts_col1]; exact Cert.RefGather.clamp_ofNat n.val n.isLt)
  exact congrArg₂ (fun r c => y (ix4 b u r c)) h0 h1

end Cert.RefStages

end
-- ==== Proof.RefScore.lean ====
/-
  The reference's three dense layers and its scaled scores, read at an index, are the specification's.

  Each projection is a contraction of the input's last axis with a weight matrix plus a bias spread over the leading axes:
  at (b, u, n, g) it is Σ_k x[b,u,n,k]·W[k,g] + β[g]. The specification states the same sum over the input re-laid as 48
  blocks, whose block 12·b + u at row n is the input's row (b, u, n). The score at (b, u, n, m) contracts the feature axis
  of the query projection's row n with the key projection's row m of the same (b, u), then multiplies by the constant.
-/
import proofs.«118305_j91036126806755_2_alg».proof.Proof.RefRead
import proofs.«118305_j91036126806755_2_alg».proof.Proof.Spec

noncomputable section

namespace Cert.RefScore

open Cert.ReferenceIdeal Cert.ReferenceIdeal.Gen Cert.ReferenceIdeal.Read Idealize.ShloMosaic Idealize.ShloMosaic.ValueIdx
open Cert.DiagAttention
open scoped BigOperators

/-- The specification's dense layer of block 12·b + u, written over the four-axis input. -/
theorem dense_relaid (x : Batched.Idx → EReal) (W : Weight.Idx → EReal) (β : Bias.Idx → EReal)
    (b : Fin 4) (u : Fin 12) (n : Fin 1024) (g : Fin 512) :
    dense (shapeCast Rows x batched_to_rows) W β (blockOf b u) n g
      = (∑ k : Fin 512, x (ix4 b u n k) * W (ix2 k g)) + β (ix1 g) := by
  unfold dense
  exact congrArg (· + β (ix1 g))
    (Finset.sum_congr rfl fun k _ => congrArg (· * W (ix2 k g)) (relaid_input_apply x b u n k))

/-- The query projection's bias, spread over the four axes, at (b, u, n, g): the bias at g. -/
theorem query_bias (bq : (⟨S512, .f32⟩ : BufTy).Contents (Elt Ideal)) (b : Fin 4) (u : Fin 12) (n : Fin 1024) (g : Fin 512) :
    val_main_v2 (F := Ideal) bq (ix4 b u n g) = bq (ix1 g) := by
  rw [val_main_v2_apply, val_main_v1_apply]
  exact congrArg bq (funext fun a => match a with | ⟨0, _⟩ => rfl)

/-- The query projection at (b, u, n, g) is the dense layer of block 12·b + u at row n, feature g. -/
theorem query_apply (x : (⟨S4x12x1024x512, .f32⟩ : BufTy).Contents (Elt Ideal)) (Wq : (⟨S512x512, .f32⟩ : BufTy).Contents (Elt Ideal)) (bq : (⟨S512, .f32⟩ : BufTy).Contents (Elt Ideal)) (b : Fin 4) (u : Fin 12) (n : Fin 1024) (g : Fin 512) :
    val_main_v3 (F := Ideal) x Wq bq (ix4 b u n g)
      = dense (shapeCast Rows x batched_to_rows) Wq bq (blockOf b u) n g := by
  rw [dense_relaid, val_main_v3_apply, val_main_v0_apply, query_bias]
  show (∑ k : Fin 512, x (lidx_main_v0 (ix4 b u n g) k) * Wq (ridx_main_v0 (ix4 b u n g) k)) + bq (ix1 g) = _
  refine congrArg (· + bq (ix1 g)) (Finset.sum_congr rfl fun k _ => ?_)
  exact congrArg₂ (fun p q => x p * Wq q)
    (funext fun a => match a with | ⟨0, _⟩ => rfl | ⟨1, _⟩ => rfl | ⟨2, _⟩ => rfl | ⟨3, _⟩ => rfl)
    (funext fun a => match a with | ⟨0, _⟩ => rfl | ⟨1, _⟩ => rfl)

/-- The key projection's bias, spread over the four axes, at (b, u, n, g): the bias at g. -/
theorem key_bias (bk : (⟨S512, .f32⟩ : BufTy).Contents (Elt Ideal)) (b : Fin 4) (u : Fin 12) (n : Fin 1024) (g : Fin 512) :
    val_main_v6 (F := Ideal) bk (ix4 b u n g) = bk (ix1 g) := by
  rw [val_main_v6_apply, val_main_v5_apply]
  exact congrArg bk (funext fun a => match a with | ⟨0, _⟩ => rfl)

/-- The key projection at (b, u, n, g) is the dense layer of block 12·b + u at row n, feature g. -/
theorem key_apply (x : (⟨S4x12x1024x512, .f32⟩ : BufTy).Contents (Elt Ideal)) (Wk : (⟨S512x512, .f32⟩ : BufTy).Contents (Elt Ideal)) (bk : (⟨S512, .f32⟩ : BufTy).Contents (Elt Ideal)) (b : Fin 4) (u : Fin 12) (n : Fin 1024) (g : Fin 512) :
    val_main_v7 (F := Ideal) x Wk bk (ix4 b u n g)
      = dense (shapeCast Rows x batched_to_rows) Wk bk (blockOf b u) n g := by
  rw [dense_relaid, val_main_v7_apply, val_main_v4_apply, key_bias]
  show (∑ k : Fin 512, x (lidx_main_v4 (ix4 b u n g) k) * Wk (ridx_main_v4 (ix4 b u n g) k)) + bk (ix1 g) = _
  refine congrArg (· + bk (ix1 g)) (Finset.sum_congr rfl fun k _ => ?_)
  exact congrArg₂ (fun p q => x p * Wk q)
    (funext fun a => match a with | ⟨0, _⟩ => rfl | ⟨1, _⟩ => rfl | ⟨2, _⟩ => rfl | ⟨3, _⟩ => rfl)
    (funext fun a => match a with | ⟨0, _⟩ => rfl | ⟨1, _⟩ => rfl)

/-- The value projection's bias, spread over the four axes, at (b, u, n, g): the bias at g. -/
theorem value_bias (bv : (⟨S512, .f32⟩ : BufTy).Contents (Elt Ideal)) (b : Fin 4) (u : Fin 12) (n : Fin 1024) (g : Fin 512) :
    val_main_v10 (F := Ideal) bv (ix4 b u n g) = bv (ix1 g) := by
  rw [val_main_v10_apply, val_main_v9_apply]
  exact congrArg bv (funext fun a => match a with | ⟨0, _⟩ => rfl)

/-- The value projection at (b, u, n, g) is the dense layer of block 12·b + u at row n, feature g. -/
theorem value_apply (x : (⟨S4x12x1024x512, .f32⟩ : BufTy).Contents (Elt Ideal)) (Wv : (⟨S512x512, .f32⟩ : BufTy).Contents (Elt Ideal)) (bv : (⟨S512, .f32⟩ : BufTy).Contents (Elt Ideal)) (b : Fin 4) (u : Fin 12) (n : Fin 1024) (g : Fin 512) :
    val_main_v11 (F := Ideal) x Wv bv (ix4 b u n g)
      = dense (shapeCast Rows x batched_to_rows) Wv bv (blockOf b u) n g := by
  rw [dense_relaid, val_main_v11_apply, val_main_v8_apply, value_bias]
  show (∑ k : Fin 512, x (lidx_main_v8 (ix4 b u n g) k) * Wv (ridx_main_v8 (ix4 b u n g) k)) + bv (ix1 g) = _
  refine congrArg (· + bv (ix1 g)) (Finset.sum_congr rfl fun k _ => ?_)
  exact congrArg₂ (fun p q => x p * Wv q)
    (funext fun a => match a with | ⟨0, _⟩ => rfl | ⟨1, _⟩ => rfl | ⟨2, _⟩ => rfl | ⟨3, _⟩ => rfl)
    (funext fun a => match a with | ⟨0, _⟩ => rfl | ⟨1, _⟩ => rfl)

/-- THE SCALED SCORE at (b, u, n, m): the specification's score of query row n against key row m in block 12·b + u. -/
theorem score_apply (x : (⟨S4x12x1024x512, .f32⟩ : BufTy).Contents (Elt Ideal)) (Wq : (⟨S512x512, .f32⟩ : BufTy).Contents (Elt Ideal)) (bq : (⟨S512, .f32⟩ : BufTy).Contents (Elt Ideal)) (Wk : (⟨S512x512, .f32⟩ : BufTy).Contents (Elt Ideal)) (bk : (⟨S512, .f32⟩ : BufTy).Contents (Elt Ideal))
    (b : Fin 4) (u : Fin 12) (n m : Fin 1024) :
    val_main_v14 (F := Ideal) x Wq bq Wk bk (ix4 b u n m)
      = score (shapeCast Rows x batched_to_rows) Wq bq Wk bk (blockOf b u) n m := by
  unfold score
  rw [val_main_v14_apply, val_main_v12_apply, val_main_v13_apply, val_main_cst_apply]
  show (∑ k : Fin 512, val_main_v3 (F := Ideal) x Wq bq (lidx_main_v12 (ix4 b u n m) k)
        * val_main_v7 (F := Ideal) x Wk bk (ridx_main_v12 (ix4 b u n m) k)) * Ideal.ofBits .f32 0x3D3504F3#32 = _
  refine congrArg (· * Ideal.ofBits .f32 0x3D3504F3#32) (Finset.sum_congr rfl fun k _ => ?_)
  have el : lidx_main_v12 (ix4 b u n m) k = ix4 b u n k :=
    funext fun a => match a with | ⟨0, _⟩ => rfl | ⟨1, _⟩ => rfl | ⟨2, _⟩ => rfl | ⟨3, _⟩ => rfl
  have er : ridx_main_v12 (ix4 b u n m) k = ix4 b u m k :=
    funext fun a => match a with | ⟨0, _⟩ => rfl | ⟨1, _⟩ => rfl | ⟨2, _⟩ => rfl | ⟨3, _⟩ => rfl
  rw [el, er, query_apply, key_apply]

end Cert.RefScore

end
-- ==== Proof.LibHostRowMax.lean ====
/-
  The host's maximum-reduction over axis 1 of a matrix [a, b] of extended reals, read at a row.

  A reduction by a commutative, associative operation at result index r is the fold of that operation, from the initial
  value, over the coordinates of the reduced axis; inserting coordinate k on axis 1 over row r gives the matrix index
  (r, k). So the row's maximum is the fold of max over the row's b entries. A second fact used beside it: taking the
  maximum of such a fold with the value it was folded from changes nothing, since the fold is at least that value.
-/
import Idealize.ShloMosaic.PureOps.Reduce
import Idealize.ShloMosaic.PureOps.Ideal.Laws
import proofs.«118305_j91036126806755_2_alg».proof.Proof.LibSoftmaxRow

noncomputable section

namespace Cert.LibHostRowMax

open Idealize.ShloMosaic Idealize.ShloMosaic.ValueIdx

/-- The host's max-reduce over axis 1 at row `r`: the fold of max from the initial value over the row's entries. -/
theorem hostRowMax_apply {a b : ℕ} (x : (⟨2, ![a, b]⟩ : Shape).Idx → EReal) (init : (⟨0, ![]⟩ : Shape).Idx → EReal)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (r : Fin a) :
    Host.reduce (FloatOps.maximumf (F := Ideal) (φ := .f32)) x init h' hu (ix1 r)
      = (Finset.univ : Finset (Fin b)).fold max (init (Shape.Idx.first hu)) (fun k => x (ix2 r k)) := by
  rw [Host.reduce_eq_fold_single _ x init h' h hu (ix1 r)]
  exact congrArg (fun f => (Finset.univ : Finset (Fin b)).fold max (init (Shape.Idx.first hu)) f)
    (funext fun k => congrArg x (Cert.LibSoftmaxRow.lift_row h r k))

/-- The maximum of a fold of max with the value it starts from is the fold. -/
theorem max_fold_start {ι : Type} (s : Finset ι) (b : EReal) (f : ι → EReal) :
    max b (s.fold max b f) = s.fold max b f :=
  max_eq_right ((Finset.le_fold_max b).mpr (Or.inl le_rfl))

end Cert.LibHostRowMax

end
-- ==== Proof.RefValue.lean ====
/-
  The reference's result is the specification's, entry by entry.

  Fix the entry (b, u, n, f) and write t = 12·b + u. Downstream of the scores s[t,n,m] the reference computes:
    - the row maximum M[t,n]: a fold of max from -∞ over m, then the maximum of -∞ with it, which is the fold itself;
    - e[t,n,m] = exp(s[t,n,m] - M[t,n]), the maximum having been spread back over m;
    - the row sum 0 + Σ_m e[t,n,m] = Σ_m e[t,n,m], spread back over m;
    - the softmax entry e[t,n,m] / Σ_m' e[t,n,m'];
    - its diagonal: the entry at m = n;
    - the product of the diagonal, spread over f, with the value projection at (b, u, n, f).
  Each of these is the like-named quantity of the specification at block t.
-/
import proofs.«118305_j91036126806755_2_alg».proof.Proof.RefStages
import proofs.«118305_j91036126806755_2_alg».proof.Proof.RefScore
import proofs.«118305_j91036126806755_2_alg».proof.Proof.LibHostRowMax

noncomputable section

namespace Cert.RefValue

open Cert.ReferenceIdeal Cert.ReferenceIdeal.Gen Cert.ReferenceIdeal.Read Idealize.ShloMosaic Idealize.ShloMosaic.ValueIdx
open Cert.DiagAttention
open scoped BigOperators

/-- The row maximum at (b, u, n): the maximum of -∞ with the fold from -∞ is the fold, the specification's row maximum. -/
theorem rowMax_apply (x : (⟨S4x12x1024x512, .f32⟩ : BufTy).Contents (Elt Ideal)) (Wq : (⟨S512x512, .f32⟩ : BufTy).Contents (Elt Ideal))
    (bq : (⟨S512, .f32⟩ : BufTy).Contents (Elt Ideal)) (Wk : (⟨S512x512, .f32⟩ : BufTy).Contents (Elt Ideal))
    (bk : (⟨S512, .f32⟩ : BufTy).Contents (Elt Ideal)) (b : Fin 4) (u : Fin 12) (n : Fin 1024) :
    val_main_v17 (F := Ideal) x Wq bq Wk bk (ix3 b u n) = rowMax (shapeCast Rows x batched_to_rows) Wq bq Wk bk (blockOf b u) n := by
  rw [val_main_v17_apply, val_main_v16_apply, val_main_cst_1_apply, Cert.RefStages.rowmax_apply]
  show max (Ideal.ofBits .f32 0xFF800000#32)
      ((Finset.univ : Finset (Fin 1024)).fold max (Ideal.ofBits .f32 0xFF800000#32)
        (fun m => val_main_v14 (F := Ideal) x Wq bq Wk bk (ix4 b u n m))) = _
  rw [Cert.LibHostRowMax.max_fold_start]
  unfold rowMax
  exact congrArg (fun g => (Finset.univ : Finset (Fin 1024)).fold max (Ideal.ofBits .f32 0xFF800000#32) g)
    (funext fun m => Cert.RefScore.score_apply x Wq bq Wk bk b u n m)

/-- The exponential at (b, u, n, m): of the score less the row's maximum, which was spread back over m. -/
theorem exp_apply (x : (⟨S4x12x1024x512, .f32⟩ : BufTy).Contents (Elt Ideal)) (Wq : (⟨S512x512, .f32⟩ : BufTy).Contents (Elt Ideal))
    (bq : (⟨S512, .f32⟩ : BufTy).Contents (Elt Ideal)) (Wk : (⟨S512x512, .f32⟩ : BufTy).Contents (Elt Ideal))
    (bk : (⟨S512, .f32⟩ : BufTy).Contents (Elt Ideal)) (b : Fin 4) (u : Fin 12) (n m : Fin 1024) :
    val_main_v21 (F := Ideal) x Wq bq Wk bk (ix4 b u n m) = expTerm (shapeCast Rows x batched_to_rows) Wq bq Wk bk (blockOf b u) n m := by
  rw [val_main_v21_apply, val_main_v20_apply, val_main_v19_apply, val_main_v18_apply]
  have e : idx_main_v18 (idx_main_v19 (ix4 b u n m)) = ix3 b u n :=
    funext fun a => match a with | ⟨0, _⟩ => rfl | ⟨1, _⟩ => rfl | ⟨2, _⟩ => rfl
  rw [e, rowMax_apply, Cert.RefScore.score_apply]
  rfl

/-- The row sum at (b, u, n): zero plus the sum over m of the exponentials. -/
theorem rowSum_apply (x : (⟨S4x12x1024x512, .f32⟩ : BufTy).Contents (Elt Ideal)) (Wq : (⟨S512x512, .f32⟩ : BufTy).Contents (Elt Ideal))
    (bq : (⟨S512, .f32⟩ : BufTy).Contents (Elt Ideal)) (Wk : (⟨S512x512, .f32⟩ : BufTy).Contents (Elt Ideal))
    (bk : (⟨S512, .f32⟩ : BufTy).Contents (Elt Ideal)) (b : Fin 4) (u : Fin 12) (n : Fin 1024) :
    val_main_v22 (F := Ideal) x Wq bq Wk bk (ix3 b u n)
      = ∑ m : Fin 1024, expTerm (shapeCast Rows x batched_to_rows) Wq bq Wk bk (blockOf b u) n m := by
  rw [val_main_v22_apply, val_main_cst_2_apply]
  show Ideal.ofBits .f32 0x00000000#32
      + ∑ k : Fin 1024, val_main_v21 (F := Ideal) x Wq bq Wk bk (idx_main_v22 (ix3 b u n) k) = _
  rw [Ideal.ofBits_zero_f32, zero_add]
  refine Finset.sum_congr rfl fun m _ => ?_
  have e : idx_main_v22 (ix3 b u n) m = ix4 b u n m :=
    funext fun a => match a with | ⟨0, _⟩ => rfl | ⟨1, _⟩ => rfl | ⟨2, _⟩ => rfl | ⟨3, _⟩ => rfl
  rw [e]
  exact exp_apply x Wq bq Wk bk b u n m

/-- The softmax entry at (b, u, n, m): the exponential over the row's sum, which was spread back over m. -/
theorem softmax_apply (x : (⟨S4x12x1024x512, .f32⟩ : BufTy).Contents (Elt Ideal)) (Wq : (⟨S512x512, .f32⟩ : BufTy).Contents (Elt Ideal))
    (bq : (⟨S512, .f32⟩ : BufTy).Contents (Elt Ideal)) (Wk : (⟨S512x512, .f32⟩ : BufTy).Contents (Elt Ideal))
    (bk : (⟨S512, .f32⟩ : BufTy).Contents (Elt Ideal)) (b : Fin 4) (u : Fin 12) (n m : Fin 1024) :
    val_main_v25 (F := Ideal) x Wq bq Wk bk (ix4 b u n m)
      = Ideal.div (expTerm (shapeCast Rows x batched_to_rows) Wq bq Wk bk (blockOf b u) n m)
          (∑ m' : Fin 1024, expTerm (shapeCast Rows x batched_to_rows) Wq bq Wk bk (blockOf b u) n m') := by
  rw [val_main_v25_apply, val_main_v24_apply, val_main_v23_apply]
  have e : idx_main_v23 (idx_main_v24 (ix4 b u n m)) = ix3 b u n :=
    funext fun a => match a with | ⟨0, _⟩ => rfl | ⟨1, _⟩ => rfl | ⟨2, _⟩ => rfl
  rw [e, rowSum_apply, exp_apply]
  rfl

/-- The diagonal at (b, u, n): the softmax entry (b, u, n, n), the specification's diagonal probability of row n. -/
theorem diagProb_apply (x : (⟨S4x12x1024x512, .f32⟩ : BufTy).Contents (Elt Ideal)) (Wq : (⟨S512x512, .f32⟩ : BufTy).Contents (Elt Ideal))
    (bq : (⟨S512, .f32⟩ : BufTy).Contents (Elt Ideal)) (Wk : (⟨S512x512, .f32⟩ : BufTy).Contents (Elt Ideal))
    (bk : (⟨S512, .f32⟩ : BufTy).Contents (Elt Ideal)) (b : Fin 4) (u : Fin 12) (n : Fin 1024) :
    val_main_v26 (F := Ideal) x Wq bq Wk bk (ix3 b u n) = diagProb (shapeCast Rows x batched_to_rows) Wq bq Wk bk (blockOf b u) n :=
  (Cert.RefStages.diag_apply x Wq bq Wk bk b u n).trans (softmax_apply x Wq bq Wk bk b u n n)

/-- THE REFERENCE IS THE SPECIFICATION'S RESULT. -/
theorem reference_is_result (x : (⟨S4x12x1024x512, .f32⟩ : BufTy).Contents (Elt Ideal)) (Wq : (⟨S512x512, .f32⟩ : BufTy).Contents (Elt Ideal))
    (bq : (⟨S512, .f32⟩ : BufTy).Contents (Elt Ideal)) (Wk : (⟨S512x512, .f32⟩ : BufTy).Contents (Elt Ideal))
    (bk : (⟨S512, .f32⟩ : BufTy).Contents (Elt Ideal)) (Wv : (⟨S512x512, .f32⟩ : BufTy).Contents (Elt Ideal))
    (bv : (⟨S512, .f32⟩ : BufTy).Contents (Elt Ideal)) :
    Cert.ReferenceIdeal.Read.val_main_v29 (F := Ideal) x Wq bq Wk bk Wv bv = Cert.DiagAttention.result x Wq bq Wk bk Wv bv := by
  funext i
  obtain ⟨b, u, n, f, rfl⟩ : ∃ (b : Fin 4) (u : Fin 12) (n : Fin 1024) (f : Fin 512), i = ix4 b u n f :=
    ⟨i 0, i 1, i 2, i 3, eq_ix4 i⟩
  refine Eq.trans ?_ (result_apply x Wq bq Wk bk Wv bv b u n f).symm
  unfold rowEntry
  rw [val_main_v29_apply, val_main_v28_apply, val_main_v27_apply]
  have e : idx_main_v27 (idx_main_v28 (ix4 b u n f)) = ix3 b u n :=
    funext fun a => match a with | ⟨0, _⟩ => rfl | ⟨1, _⟩ => rfl | ⟨2, _⟩ => rfl
  rw [e, diagProb_apply, Cert.RefScore.value_apply]
  rfl

end Cert.RefValue

end
-- ==== Proof.lean ====
/-
  The kernel against its reference, at the ideal values.

  Both programs compute, for an input x of shape [4, 12, 1024, 512] and three dense layers (Wq, bq), (Wk, bk), (Wv, bv):
  with Q, K, V the three projections of x, s = (Q·Kᵀ over the features)·c the scaled scores within each of the 48 blocks
  of 1024 rows, and d[n] = exp(s[n,n] - max_m s[n,m]) / Σ_m exp(s[n,m] - max_m s[n,m]) the diagonal of the row softmax,
  the result d[n]·V[n, f]  (Proof/Spec.lean: `Cert.DiagAttention.result`).

  The kernel takes one block per grid point and forms the diagonal entry by summing each row of exponentials with every
  off-diagonal entry masked to zero; the reference forms the whole softmax over all four axes and gathers its diagonal.
  Over the extended reals the two agree entry by entry with no condition on the inputs: a sum of one entry and zeros is
  that entry, a sum started from zero is the sum, and the maximum of -∞ with a maximum folded from -∞ is that maximum;
  every other step is the same operation on both sides. The frames of the two kernel programs are the generated ones, the
  reference's is its run with the result dropped, and the idealization rewrote nothing.
-/
import proofs.«118305_j91036126806755_2_alg».proof.Defs
import proofs.«118305_j91036126806755_2_alg».proof.Proof.Gen.Kernel
import proofs.«118305_j91036126806755_2_alg».proof.Proof.Gen.Kernel.Skeleton
import proofs.«118305_j91036126806755_2_alg».proof.Proof.Gen.Kernel.Launch
import proofs.«118305_j91036126806755_2_alg».proof.Proof.Gen.Kernel.Points
import proofs.«118305_j91036126806755_2_alg».proof.Proof.Gen.Kernel.Frame
import proofs.«118305_j91036126806755_2_alg».proof.Proof.Gen.KernelIdeal
import proofs.«118305_j91036126806755_2_alg».proof.Proof.Gen.KernelIdeal.Skeleton
import proofs.«118305_j91036126806755_2_alg».proof.Proof.Gen.KernelIdeal.Launch
import proofs.«118305_j91036126806755_2_alg».proof.Proof.Gen.KernelIdeal.Points
import proofs.«118305_j91036126806755_2_alg».proof.Proof.Gen.KernelIdeal.Frame
import proofs.«118305_j91036126806755_2_alg».proof.Proof.Gen.ReferenceIdeal
import proofs.«118305_j91036126806755_2_alg».proof.Proof.Gen.Pre_finite_inputs
import proofs.«118305_j91036126806755_2_alg».proof.Proof.RefRun
import proofs.«118305_j91036126806755_2_alg».proof.Proof.RefRead
import proofs.«118305_j91036126806755_2_alg».proof.Proof.KernelValue
import proofs.«118305_j91036126806755_2_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the result buffer at the specification's `result` of
    the arguments: the kernel by its run read back (Proof/KernelValue.lean), the reference by its run and the
    index-by-index reading of its operations (Proof/RefValue.lean). -/
theorem algebraic : Cert.algebraic_KernelIdeal_ReferenceIdeal := by
  intro m ρ m' ρ' _ hagree
  refine ⟨fun c => Cert.DiagAttention.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v29_eq, Cert.RefValue.reference_is_result]
  obtain ⟨h0, h1, h2, h3, h4, h5, h6⟩ := hagree c
  rw [h0, h1, h2, h3, h4, h5, h6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
